-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x3x128 : Shape := ⟨3, ![262144, 3, 128]⟩
abbrev S262144 : Shape := ⟨1, ![262144]⟩
abbrev S128x128 : Shape := ⟨2, ![128, 128]⟩
abbrev S192x64 : Shape := ⟨2, ![192, 64]⟩
abbrev S64 : Shape := ⟨1, ![64]⟩
abbrev S64x128 : Shape := ⟨2, ![64, 128]⟩
abbrev S128 : Shape := ⟨1, ![128]⟩
abbrev S64x2 : Shape := ⟨2, ![64, 2]⟩
abbrev S65x1 : Shape := ⟨2, ![65, 1]⟩
abbrev S1 : Shape := ⟨1, ![1]⟩
abbrev S1x2 : Shape := ⟨2, ![1, 2]⟩
abbrev S2 : Shape := ⟨1, ![2]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x3x128 : S_.BroadcastsInDim S262144x3x128 (![] : Fin 0 → Fin S262144x3x128.rank)
  reducesTo_S262144x3x128_S_d0_1_2 : S262144x3x128.ReducesTo [0, 1, 2] S_
  bcast_S_S128x128 : S_.BroadcastsInDim S128x128 (![] : Fin 0 → Fin S128x128.rank)
  reducesTo_S128x128_S_d0_1 : S128x128.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64x2 : S_.BroadcastsInDim S64x2 (![] : Fin 0 → Fin S64x2.rank)
  reducesTo_S64x2_S_d0_1 : S64x2.ReducesTo [0, 1] S_
  bcast_S_S65x1 : S_.BroadcastsInDim S65x1 (![] : Fin 0 → Fin S65x1.rank)
  reducesTo_S65x1_S_d0_1 : S65x1.ReducesTo [0, 1] S_
  bcast_S_S1 : S_.BroadcastsInDim S1 (![] : Fin 0 → Fin S1.rank)
  reducesTo_S1_S_d0 : S1.ReducesTo [0] S_
  bcast_S_S1x2 : S_.BroadcastsInDim S1x2 (![] : Fin 0 → Fin S1x2.rank)
  reducesTo_S1x2_S_d0_1 : S1x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S1x2 .f32) (main_v50 : FVec F S1x2 .f32) : IVec S_ 1 :=
  let main_v51 : IVec S1x2 1 := cmpf .olt main_v49 main_v50
  let main_c_19 : IVec S_ 1 := constantI S_ 1 1#1
  let main_v52 : IVec S_ 1 := (fun x v => Host.reduce IntOp.andi x v reducesTo_S1x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S64x2 .f32) (main_arg9 : FVec F S65x1 .f32) (main_arg10 : FVec F S1 .f32) (main_arg11 : FVec F S1x2 .f32) (main_arg12 : FVec F S2 .f32) (main_v33 : IVec S_ 1) : IVec S_ 1 :=
  let main_v34 : FVec F S64x2 .f32 := Host.absf main_arg8
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S65x1 .f32 := Host.absf main_arg9
  let main_cst_14 : FVec F S_ .f32 := constant S_ .f32 0x7F800000#32
  let main_v40 : FVec F S65x1 .f32 := broadcastInDim S65x1 ![] bcast_S_S65x1 main_cst_14
  let main_v41 : IVec S65x1 1 := cmpf .olt main_v39 main_v40
  let main_c_15 : IVec S_ 1 := constantI S_ 1 1#1
  let main_v42 : IVec S_ 1 := (fun x v => Host.reduce IntOp.andi x v reducesTo_S65x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1x2 .f32 := Host.absf main_arg11
  let main_cst_18 : FVec F S_ .f32 := constant S_ .f32 0x7F800000#32
  let main_v50 : FVec F S1x2 .f32 := broadcastInDim S1x2 ![] bcast_S_S1x2 main_cst_18
  fn_part3 (F := F) main_arg12 main_v48 main_v49 main_v50

def fn_part1 {F : FTy → Type} [FloatOps F] (main_arg5 : FVec F S64 .f32) (main_arg6 : FVec F S64x128 .f32) (main_arg7 : FVec F S128 .f32) (main_arg8 : FVec F S64x2 .f32) (main_arg9 : FVec F S65x1 .f32) (main_arg10 : FVec F S1 .f32) (main_arg11 : FVec F S1x2 .f32) (main_arg12 : FVec F S2 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S262144x128 .f32) (main_arg1 : FVec F S262144x3x128 .f32) (main_arg2 : IVec S262144 32) (main_arg3 : FVec F S128x128 .f32) (main_arg4 : FVec F S192x64 .f32) (main_arg5 : FVec F S64 .f32) (main_arg6 : FVec F S64x128 .f32) (main_arg7 : FVec F S128 .f32) (main_arg8 : FVec F S64x2 .f32) (main_arg9 : FVec F S65x1 .f32) (main_arg10 : FVec F S1 .f32) (main_arg11 : FVec F S1x2 .f32) (main_arg12 : FVec F S2 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x3x128 .f32 := Host.absf main_arg1
  let main_cst_0 : FVec F S_ .f32 := constant S_ .f32 0x7F800000#32
  let main_v5 : FVec F S262144x3x128 .f32 := broadcastInDim S262144x3x128 ![] bcast_S_S262144x3x128 main_cst_0
  let main_v6 : IVec S262144x3x128 1 := cmpf .olt main_v4 main_v5
  let main_c_1 : IVec S_ 1 := constantI S_ 1 1#1
  let main_v7 : IVec S_ 1 := (fun x v => Host.reduce IntOp.andi x v reducesTo_S262144x3x128_S_d0_1_2 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S192x64 .f32 := Host.absf main_arg4
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg5 main_arg6 main_arg7 main_arg8 main_arg9 main_arg10 main_arg11 main_arg12 main_v13 main_v16
-- ==== Kernel.lean ====
abbrev S262144x128 : Shape := ⟨2, ![262144, 128]⟩
abbrev S262144x3x128 : Shape := ⟨3, ![262144, 3, 128]⟩
abbrev S262144 : Shape := ⟨1, ![262144]⟩
abbrev S128x128 : Shape := ⟨2, ![128, 128]⟩
abbrev S192x64 : Shape := ⟨2, ![192, 64]⟩
abbrev S64 : Shape := ⟨1, ![64]⟩
abbrev S64x128 : Shape := ⟨2, ![64, 128]⟩
abbrev S128 : Shape := ⟨1, ![128]⟩
abbrev S64x2 : Shape := ⟨2, ![64, 2]⟩
abbrev S65x1 : Shape := ⟨2, ![65, 1]⟩
abbrev S1 : Shape := ⟨1, ![1]⟩
abbrev S1x2 : Shape := ⟨2, ![1, 2]⟩
abbrev S2 : Shape := ⟨1, ![2]⟩
abbrev S128x64 : Shape := ⟨2, ![128, 64]⟩
abbrev S64x64 : Shape := ⟨2, ![64, 64]⟩
abbrev S64x1 : Shape := ⟨2, ![64, 1]⟩
abbrev S1x1 : Shape := ⟨2, ![1, 1]⟩
abbrev S262144x3 : Shape := ⟨2, ![262144, 3]⟩
abbrev S2048x128 : Shape := ⟨2, ![2048, 128]⟩
abbrev S2048x3x128 : Shape := ⟨3, ![2048, 3, 128]⟩
abbrev S2048x3 : Shape := ⟨2, ![2048, 3]⟩
abbrev S2048x1x128 : Shape := ⟨3, ![2048, 1, 128]⟩
abbrev S2048x64 : Shape := ⟨2, ![2048, 64]⟩
abbrev S1x64 : Shape := ⟨2, ![1, 64]⟩
abbrev S1x128 : Shape := ⟨2, ![1, 128]⟩
abbrev S2048x2 : Shape := ⟨2, ![2048, 2]⟩
abbrev S2048x1 : Shape := ⟨2, ![2048, 1]⟩
abbrev S786432 : Shape := ⟨1, ![786432]⟩

abbrev nBuf : Space → Nat
  | .hbm => 25
  | .vmem => 18
  | .smem => 0
  | _ => 0

abbrev bufTy : (tb : Table) → Fin (tcTables nBuf tb) → BufTy
  | .hbm, ⟨0, _⟩ => ⟨S262144x128, .f32⟩
  | .hbm, ⟨1, _⟩ => ⟨S262144x3x128, .f32⟩
  | .hbm, ⟨2, _⟩ => ⟨S262144, .i32⟩
  | .hbm, ⟨3, _⟩ => ⟨S128x128, .f32⟩
  | .hbm, ⟨4, _⟩ => ⟨S192x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S64x2, .f32⟩
  | .hbm, ⟨9, _⟩ => ⟨S65x1, .f32⟩
  | .hbm, ⟨10, _⟩ => ⟨S1, .f32⟩
  | .hbm, ⟨11, _⟩ => ⟨S1x2, .f32⟩
  | .hbm, ⟨12, _⟩ => ⟨S2, .f32⟩
  | .hbm, ⟨13, _⟩ => ⟨S128x64, .f32⟩
  | .hbm, ⟨14, _⟩ => ⟨S64x64, .f32⟩
  | .hbm, ⟨15, _⟩ => ⟨S64x1, .f32⟩
  | .hbm, ⟨16, _⟩ => ⟨S1x1, .f32⟩
  | .hbm, ⟨17, _⟩ => ⟨S128x128, .bf16⟩
  | .hbm, ⟨18, _⟩ => ⟨S128x64, .bf16⟩
  | .hbm, ⟨19, _⟩ => ⟨S64x64, .bf16⟩
  | .hbm, ⟨20, _⟩ => ⟨S64x128, .bf16⟩
  | .hbm, ⟨21, _⟩ => ⟨S64x2, .bf16⟩
  | .hbm, ⟨22, _⟩ => ⟨S64x1, .bf16⟩
  | .hbm, ⟨23, _⟩ => ⟨S262144x3, .f32⟩
  | .hbm, ⟨24, _⟩ => ⟨S786432, .f32⟩
  | .local _ .vmem, ⟨0, _⟩ => ⟨S2048x128, .f32⟩
  | .local _ .vmem, ⟨1, _⟩ => ⟨S2048x128, .f32⟩
  | .local _ .vmem, ⟨2, _⟩ => ⟨S2048x3x128, .f32⟩
  | .local _ .vmem, ⟨3, _⟩ => ⟨S2048x3x128, .f32⟩
  | .local _ .vmem, ⟨4, _⟩ => ⟨S128x128, .bf16⟩
  | .local _ .vmem, ⟨5, _⟩ => ⟨S128x64, .bf16⟩
  | .local _ .vmem, ⟨6, _⟩ => ⟨S64x64, .bf16⟩
  | .local _ .vmem, ⟨7, _⟩ => ⟨S64, .f32⟩
  | .local _ .vmem, ⟨8, _⟩ => ⟨S64x128, .bf16⟩
  | .local _ .vmem, ⟨9, _⟩ => ⟨S128, .f32⟩
  | .local _ .vmem, ⟨10, _⟩ => ⟨S64x2, .bf16⟩
  | .local _ .vmem, ⟨11, _⟩ => ⟨S64x1, .bf16⟩
  | .local _ .vmem, ⟨12, _⟩ => ⟨S1x1, .f32⟩
  | .local _ .vmem, ⟨13, _⟩ => ⟨S1, .f32⟩
  | .local _ .vmem, ⟨14, _⟩ => ⟨S1x2, .f32⟩
  | .local _ .vmem, ⟨15, _⟩ => ⟨S2, .f32⟩
  | .local _ .vmem, ⟨16, _⟩ => ⟨S2048x3, .f32⟩
  | .local _ .vmem, ⟨17, _⟩ => ⟨S2048x3, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2048x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S192x64_S128x64_0_0 : S192x64.Slices ![0, 0] S128x64
  slices_S192x64_S64x64_128_0 : S192x64.Slices ![128, 0] S64x64
  slices_S65x1_S64x1_0_0 : S65x1.Slices ![0, 0] S64x1
  slices_S65x1_S1x1_64_0 : S65x1.Slices ![64, 0] S1x1
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S2048x3x128_S2048x1x128_0_0_0 : ∀ a, (![0, 0, 0] : Fin 3 → Nat) a + S2048x1x128.size a ≤ S2048x3x128.size a
  h_S2048x1x128 : 0 < S2048x1x128.numel
  shapeCasts_S2048x1x128_S2048x128 : S2048x1x128.ShapeCasts S2048x128
  inb_S2048x3x128_S2048x1x128_0_1_0 : ∀ a, (![0, 1, 0] : Fin 3 → Nat) a + S2048x1x128.size a ≤ S2048x3x128.size a
  inb_S2048x3x128_S2048x1x128_0_2_0 : ∀ a, (![0, 2, 0] : Fin 3 → Nat) a + S2048x1x128.size a ≤ S2048x3x128.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2048x128_o0_0_S2048x64 : S2048x128.Slices ![0, 0] S2048x64
  slices_S2048x128_o0_64_S2048x64 : S2048x128.Slices ![0, 64] S2048x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S64x2_S64x2_0_0 : ∀ a, (![0, 0] : Fin 2 → Nat) a + S64x2.size a ≤ S64x2.size a
  h_S64x2 : 0 < S64x2.numel
  shapeCasts_S64x2_S64x2 : S64x2.ShapeCasts S64x2
  slices_S2048x2_o0_0_S2048x1 : S2048x2.Slices ![0, 0] S2048x1
  slices_S2048x2_o0_1_S2048x1 : S2048x2.Slices ![0, 1] S2048x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S1_S1_0 : ∀ a, (![0] : Fin 1 → Nat) a + S1.size a ≤ S1.size a
  h_S1 : 0 < S1.numel
  shapeCasts_S1_S1x1 : S1.ShapeCasts S1x1
  inb_S1x2_S1x2_0_0 : ∀ a, (![0, 0] : Fin 2 → Nat) a + S1x2.size a ≤ S1x2.size a
  h_S1x2 : 0 < S1x2.numel
  broadcasts_S2048x1_S2048x2 : S2048x1.Broadcasts S2048x2
  broadcasts_S1x2_S2048x2 : S1x2.Broadcasts S2048x2
  inb_S2_S2_0 : ∀ a, (![0] : Fin 1 → Nat) a + S2.size a ≤ S2.size a
  h_S2 : 0 < S2.numel
  shapeCasts_S2_S1x2 : S2.ShapeCasts S1x2
  concatenates_S2048x1_S2048x1_S2048x1_S2048x3_d1 : Shape.Concatenates [S2048x1, S2048x1, S2048x1] S2048x3 1
  inb_S2048x3_S2048x3_0_0 : ∀ a, (![0, 0] : Fin 2 → Nat) a + S2048x3.size a ≤ S2048x3.size a
  h_S2048x3 : 0 < S2048x3.numel
  shapeCasts_S262144x3_S786432 : S262144x3.ShapeCasts S786432
  dot_S2048x128_S128x128_S2048x128_1_0_0_1_n_n_wf : DotDims.WF S2048x128 S128x128 S2048x128 [1] [0] [0] [1] [] []
  dot_S2048x128_S128x64_S2048x64_1_0_0_1_n_n_wf : DotDims.WF S2048x128 S128x64 S2048x64 [1] [0] [0] [1] [] []
  dot_S2048x64_S64x64_S2048x64_1_0_0_1_n_n_wf : DotDims.WF S2048x64 S64x64 S2048x64 [1] [0] [0] [1] [] []
  dot_S2048x64_S64x128_S2048x128_1_0_0_1_n_n_wf : DotDims.WF S2048x64 S64x128 S2048x128 [1] [0] [0] [1] [] []
  dot_S2048x64_S64x2_S2048x2_1_0_0_1_n_n_wf : DotDims.WF S2048x64 S64x2 S2048x2 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3x128.size a ≤ S262144x3x128.size a
  hwx0_1 : ∀ i : grid0.Coords, EltTy.bits .f32 = 32 ∨ (Rect.block (s := S262144x3x128) S2048x3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .bf16 = 32 ∨ (Rect.block (s := S64x128) S64x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x2.size a ≤ S64x2.size a
  hwx0_8 : ∀ i : grid0.Coords, EltTy.bits .bf16 = 32 ∨ (Rect.block (s := S64x2) S64x2.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .bf16 = 32 ∨ (Rect.block (s := S64x1) S64x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2.size a ≤ S1x2.size a
  hwx0_12 : ∀ i : grid0.Coords, EltTy.bits .f32 = 32 ∨ (Rect.block (s := S1x2) S1x2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2.size a ≤ S2.size a
  hwx0_13 : ∀ i : grid0.Coords, EltTy.bits .f32 = 32 ∨ (Rect.block (s := S2) S2.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x3.size a ≤ S262144x3.size a
  hwx0_14 : ∀ i : grid0.Coords, EltTy.bits .f32 = 32 ∨ (Rect.block (s := S262144x3) S2048x3.size (cc0_transform_14 i) (hinb0_14 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x64_S64x2_S2048x2_1_0_0_1_n_n : DotDims S2048x64 S64x2 S2048x2 where
  lhsContracting := [1]
  rhsContracting := [0]
  lhsNonContracting := [0]
  rhsNonContracting := [1]
  lhsBatch := []
  rhsBatch := []
  wf := dot_S2048x64_S64x2_S2048x2_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S64x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S1x2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S2048x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x3x128 : Shape := ⟨3, ![262144, 3, 128]⟩
abbrev S262144 : Shape := ⟨1, ![262144]⟩
abbrev S128x128 : Shape := ⟨2, ![128, 128]⟩
abbrev S192x64 : Shape := ⟨2, ![192, 64]⟩
abbrev S64 : Shape := ⟨1, ![64]⟩
abbrev S64x128 : Shape := ⟨2, ![64, 128]⟩
abbrev S128 : Shape := ⟨1, ![128]⟩
abbrev S64x2 : Shape := ⟨2, ![64, 2]⟩
abbrev S65x1 : Shape := ⟨2, ![65, 1]⟩
abbrev S1 : Shape := ⟨1, ![1]⟩
abbrev S1x2 : Shape := ⟨2, ![1, 2]⟩
abbrev S2 : Shape := ⟨1, ![2]⟩
abbrev S262144x3x64 : Shape := ⟨3, ![262144, 3, 64]⟩
abbrev S_ : Shape := ⟨0, ![]⟩
abbrev S262144x64 : Shape := ⟨2, ![262144, 64]⟩
abbrev S262144x192 : Shape := ⟨2, ![262144, 192]⟩
abbrev S1x64 : Shape := ⟨2, ![1, 64]⟩
abbrev S1x128 : Shape := ⟨2, ![1, 128]⟩
abbrev S262144x1x64 : Shape := ⟨3, ![262144, 1, 64]⟩
abbrev S262144x3x2 : Shape := ⟨3, ![262144, 3, 2]⟩
abbrev S262144x3x1 : Shape := ⟨3, ![262144, 3, 1]⟩
abbrev S262144x1 : Shape := ⟨2, ![262144, 1]⟩
abbrev S262144x65 : Shape := ⟨2, ![262144, 65]⟩
abbrev S1x1 : Shape := ⟨2, ![1, 1]⟩
abbrev S262144x2 : Shape := ⟨2, ![262144, 2]⟩
abbrev S262144x1x1 : Shape := ⟨3, ![262144, 1, 1]⟩
abbrev S262144x3 : Shape := ⟨2, ![262144, 3]⟩
abbrev S786432 : Shape := ⟨1, ![786432]⟩

abbrev nBuf : Space → Nat
  | .hbm => 87
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x3x128, .f32⟩
  | .hbm, ⟨2, _⟩ => ⟨S262144, .i32⟩
  | .hbm, ⟨3, _⟩ => ⟨S128x128, .f32⟩
  | .hbm, ⟨4, _⟩ => ⟨S192x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S64x2, .f32⟩
  | .hbm, ⟨9, _⟩ => ⟨S65x1, .f32⟩
  | .hbm, ⟨10, _⟩ => ⟨S1, .f32⟩
  | .hbm, ⟨11, _⟩ => ⟨S1x2, .f32⟩
  | .hbm, ⟨12, _⟩ => ⟨S2, .f32⟩
  | .hbm, ⟨13, _⟩ => ⟨S262144x3x128, .f32⟩
  | .hbm, ⟨14, _⟩ => ⟨S262144x3x64, .f32⟩
  | .hbm, ⟨15, _⟩ => ⟨S262144x3x64, .f32⟩
  | .hbm, ⟨16, _⟩ => ⟨S262144x3x64, .f32⟩
  | .hbm, ⟨17, _⟩ => ⟨S_, .f32⟩
  | .hbm, ⟨18, _⟩ => ⟨S262144x64, .f32⟩
  | .hbm, ⟨19, _⟩ => ⟨S262144x64, .f32⟩
  | .hbm, ⟨20, _⟩ => ⟨S262144x192, .f32⟩
  | .hbm, ⟨21, _⟩ => ⟨S262144x64, .f32⟩
  | .hbm, ⟨22, _⟩ => ⟨S1x64, .f32⟩
  | .hbm, ⟨23, _⟩ => ⟨S262144x64, .f32⟩
  | .hbm, ⟨24, _⟩ => ⟨S262144x64, .f32⟩
  | .hbm, ⟨25, _⟩ => ⟨S262144x64, .f32⟩
  | .hbm, ⟨26, _⟩ => ⟨S262144x64, .f32⟩
  | .hbm, ⟨27, _⟩ => ⟨S_, .f32⟩
  | .hbm, ⟨28, _⟩ => ⟨S262144x64, .f32⟩
  | .hbm, ⟨29, _⟩ => ⟨S262144x64, .f32⟩
  | .hbm, ⟨30, _⟩ => ⟨S_, .f32⟩
  | .hbm, ⟨31, _⟩ => ⟨S262144x64, .f32⟩
  | .hbm, ⟨32, _⟩ => ⟨S262144x64, .f32⟩
  | .hbm, ⟨33, _⟩ => ⟨S262144x64, .f32⟩
  | .hbm, ⟨34, _⟩ => ⟨S262144x128, .f32⟩
  | .hbm, ⟨35, _⟩ => ⟨S1x128, .f32⟩
  | .hbm, ⟨36, _⟩ => ⟨S262144x128, .f32⟩
  | .hbm, ⟨37, _⟩ => ⟨S262144x128, .f32⟩
  | .hbm, ⟨38, _⟩ => ⟨S262144x64, .f32⟩
  | .hbm, ⟨39, _⟩ => ⟨S262144x64, .f32⟩
  | .hbm, ⟨40, _⟩ => ⟨S262144x1x64, .f32⟩
  | .hbm, ⟨41, _⟩ => ⟨S262144x3x64, .f32⟩
  | .hbm, ⟨42, _⟩ => ⟨S262144x3x64, .f32⟩
  | .hbm, ⟨43, _⟩ => ⟨S262144x64, .f32⟩
  | .hbm, ⟨44, _⟩ => ⟨S262144x64, .f32⟩
  | .hbm, ⟨45, _⟩ => ⟨S_, .f32⟩
  | .hbm, ⟨46, _⟩ => ⟨S262144x64, .f32⟩
  | .hbm, ⟨47, _⟩ => ⟨S262144x64, .f32⟩
  | .hbm, ⟨48, _⟩ => ⟨S_, .f32⟩
  | .hbm, ⟨49, _⟩ => ⟨S262144x64, .f32⟩
  | .hbm, ⟨50, _⟩ => ⟨S262144x64, .f32⟩
  | .hbm, ⟨51, _⟩ => ⟨S262144x64, .f32⟩
  | .hbm, ⟨52, _⟩ => ⟨S262144x3x2, .f32⟩
  | .hbm, ⟨53, _⟩ => ⟨S262144x3x1, .f32⟩
  | .hbm, ⟨54, _⟩ => ⟨S262144x3x1, .f32⟩
  | .hbm, ⟨55, _⟩ => ⟨S262144x3x1, .f32⟩
  | .hbm, ⟨56, _⟩ => ⟨S_, .f32⟩
  | .hbm, ⟨57, _⟩ => ⟨S262144x1, .f32⟩
  | .hbm, ⟨58, _⟩ => ⟨S262144x1, .f32⟩
  | .hbm, ⟨59, _⟩ => ⟨S262144x65, .f32⟩
  | .hbm, ⟨60, _⟩ => ⟨S262144x1, .f32⟩
  | .hbm, ⟨61, _⟩ => ⟨S1x1, .f32⟩
  | .hbm, ⟨62, _⟩ => ⟨S262144x1, .f32⟩
  | .hbm, ⟨63, _⟩ => ⟨S262144x1, .f32⟩
  | .hbm, ⟨64, _⟩ => ⟨S262144x1, .f32⟩
  | .hbm, ⟨65, _⟩ => ⟨S262144x1, .f32⟩
  | .hbm, ⟨66, _⟩ => ⟨S_, .f32⟩
  | .hbm, ⟨67, _⟩ => ⟨S262144x1, .f32⟩
  | .hbm, ⟨68, _⟩ => ⟨S262144x1, .f32⟩
  | .hbm, ⟨69, _⟩ => ⟨S_, .f32⟩
  | .hbm, ⟨70, _⟩ => ⟨S262144x1, .f32⟩
  | .hbm, ⟨71, _⟩ => ⟨S262144x1, .f32⟩
  | .hbm, ⟨72, _⟩ => ⟨S262144x1, .f32⟩
  | .hbm, ⟨73, _⟩ => ⟨S262144x2, .f32⟩
  | .hbm, ⟨74, _⟩ => ⟨S1x2, .f32⟩
  | .hbm, ⟨75, _⟩ => ⟨S262144x2, .f32⟩
  | .hbm, ⟨76, _⟩ => ⟨S262144x2, .f32⟩
  | .hbm, ⟨77, _⟩ => ⟨S262144x1, .f32⟩
  | .hbm, ⟨78, _⟩ => ⟨S262144x1, .f32⟩
  | .hbm, ⟨79, _⟩ => ⟨S262144x1x1, .f32⟩
  | .hbm, ⟨80, _⟩ => ⟨S262144x3x1, .f32⟩
  | .hbm, ⟨81, _⟩ => ⟨S262144x3x1, .f32⟩
  | .hbm, ⟨82, _⟩ => ⟨S262144x3, .f32⟩
  | .hbm, ⟨83, _⟩ => ⟨S_, .f32⟩
  | .hbm, ⟨84, _⟩ => ⟨S262144x3, .f32⟩
  | .hbm, ⟨85, _⟩ => ⟨S262144x3, .f32⟩
  | .hbm, ⟨86, _⟩ => ⟨S786432, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_0 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_1 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩

abbrev nD : Nat := 1
abbrev τ : Topo := Topo.v7x

variable {F : FTy → Type} [FloatOps F]

class Facts₀ : Prop where
  slices_S262144x3x128_S262144x3x64_0_0_0 : S262144x3x128.Slices ![0, 0, 0] S262144x3x64
  slices_S262144x3x128_S262144x3x64_0_0_64 : S262144x3x128.Slices ![0, 0, 64] S262144x3x64
  reducesTo_S262144x3x64_S262144x64_d1 : S262144x3x64.ReducesTo [1] S262144x64
  h_S_ : 0 < S_.numel
  concatenates_S262144x128_S262144x64_S262144x192_d1 : Shape.Concatenates [S262144x128, S262144x64] S262144x192 1
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  slices_S262144x128_S262144x64_0_0 : S262144x128.Slices ![0, 0] S262144x64
  slices_S262144x128_S262144x64_0_64 : S262144x128.Slices ![0, 64] S262144x64
  bcast_S262144x64_S262144x1x64_0_2 : S262144x64.BroadcastsInDim S262144x1x64 (![0, 2] : Fin 2 → Fin S262144x1x64.rank)
  bcast_S262144x1x64_S262144x3x64_0_1_2 : S262144x1x64.BroadcastsInDim S262144x3x64 (![0, 1, 2] : Fin 3 → Fin S262144x3x64.rank)
  slices_S262144x3x2_S262144x3x1_0_0_0 : S262144x3x2.Slices ![0, 0, 0] S262144x3x1
  slices_S262144x3x2_S262144x3x1_0_0_1 : S262144x3x2.Slices ![0, 0, 1] S262144x3x1
  reducesTo_S262144x3x1_S262144x1_d1 : S262144x3x1.ReducesTo [1] S262144x1
  concatenates_S262144x64_S262144x1_S262144x65_d1 : Shape.Concatenates [S262144x64, S262144x1] S262144x65 1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S262144x1 : S_.BroadcastsInDim S262144x1 (![] : Fin 0 → Fin S262144x1.rank)
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  slices_S262144x2_S262144x1_0_0 : S262144x2.Slices ![0, 0] S262144x1
  slices_S262144x2_S262144x1_0_1 : S262144x2.Slices ![0, 1] S262144x1
  bcast_S262144x1_S262144x1x1_0_2 : S262144x1.BroadcastsInDim S262144x1x1 (![0, 2] : Fin 2 → Fin S262144x1x1.rank)
  bcast_S262144x1x1_S262144x3x1_0_1_2 : S262144x1x1.BroadcastsInDim S262144x3x1 (![0, 1, 2] : Fin 3 → Fin S262144x3x1.rank)
  shapeCasts_S262144x3x1_S262144x3 : S262144x3x1.ShapeCasts S262144x3
  bcast_S_S262144x3 : S_.BroadcastsInDim S262144x3 (![] : Fin 0 → Fin S262144x3.rank)
  shapeCasts_S262144x3_S786432 : S262144x3.ShapeCasts S786432
  dot_S262144x3x128_S128x128_S262144x3x128_2_0_01_1_n_n_wf : DotDims.WF S262144x3x128 S128x128 S262144x3x128 [2] [0] [0, 1] [1] [] []
  dot_S262144x192_S192x64_S262144x64_1_0_0_1_n_n_wf : DotDims.WF S262144x192 S192x64 S262144x64 [1] [0] [0] [1] [] []
  dot_S262144x64_S64x128_S262144x128_1_0_0_1_n_n_wf : DotDims.WF S262144x64 S64x128 S262144x128 [1] [0] [0] [1] [] []
  dot_S262144x3x64_S64x2_S262144x3x2_2_0_01_1_n_n_wf : DotDims.WF S262144x3x64 S64x2 S262144x3x2 [2] [0] [0, 1] [1] [] []
  dot_S262144x65_S65x1_S262144x1_1_0_0_1_n_n_wf : DotDims.WF S262144x65 S65x1 S262144x1 [1] [0] [0] [1] [] []
  dot_S262144x1_S1x2_S262144x2_1_0_0_1_n_n_wf : DotDims.WF S262144x1 S1x2 S262144x2 [1] [0] [0] [1] [] []

variable [Facts₀]

def dot_S262144x3x128_S128x128_S262144x3x128_2_0_01_1_n_n : DotDims S262144x3x128 S128x128 S262144x3x128 where
  lhsContracting := [2]
  rhsContracting := [0]
  lhsNonContracting := [0, 1]
  rhsNonContracting := [1]
  lhsBatch := []
  rhsBatch := []
  wf := dot_S262144x3x128_S128x128_S262144x3x128_2_0_01_1_n_n_wf
def dot_S262144x192_S192x64_S262144x64_1_0_0_1_n_n : DotDims S262144x192 S192x64 S262144x64 where
  lhsContracting := [1]
  rhsContracting := [0]
  lhsNonContracting := [0]
  rhsNonContracting := [1]
  lhsBatch := []
  rhsBatch := []
  wf := dot_S262144x192_S192x64_S262144x64_1_0_0_1_n_n_wf
def dot_S262144x64_S64x128_S262144x128_1_0_0_1_n_n : DotDims S262144x64 S64x128 S262144x128 where
  lhsContracting := [1]
  rhsContracting := [0]
  lhsNonContracting := [0]
  rhsNonContracting := [1]
  lhsBatch := []
  rhsBatch := []
  wf := dot_S262144x64_S64x128_S262144x128_1_0_0_1_n_n_wf
def dot_S262144x3x64_S64x2_S262144x3x2_2_0_01_1_n_n : DotDims S262144x3x64 S64x2 S262144x3x2 where
  lhsContracting := [2]
  rhsContracting := [0]
  lhsNonContracting := [0, 1]
  rhsNonContracting := [1]
  lhsBatch := []
  rhsBatch := []
  wf := dot_S262144x3x64_S64x2_S262144x3x2_2_0_01_1_n_n_wf
def dot_S262144x65_S65x1_S262144x1_1_0_0_1_n_n : DotDims S262144x65 S65x1 S262144x1 where
  lhsContracting := [1]
  rhsContracting := [0]
  lhsNonContracting := [0]
  rhsNonContracting := [1]
  lhsBatch := []
  rhsBatch := []
  wf := dot_S262144x65_S65x1_S262144x1_1_0_0_1_n_n_wf
def dot_S262144x1_S1x2_S262144x2_1_0_0_1_n_n : DotDims S262144x1 S1x2 S262144x2 where
  lhsContracting := [1]
  rhsContracting := [0]
  lhsNonContracting := [0]
  rhsNonContracting := [1]
  lhsBatch := []
  rhsBatch := []
  wf := dot_S262144x1_S1x2_S262144x2_1_0_0_1_n_n_wf

class Facts : Prop extends Facts₀ where

variable [Facts]
-- ==== Proof.RowSpec.lean ====
/-
  One row of the two gated equivariant blocks, over the extended reals.

  A row carries 128 scalar features `s` and three Cartesian planes of 128 vector features `v a`.  A block mixes each
  plane by a matrix, splits the mixed plane in two halves, takes the Euclidean norm of the first halves over the
  three planes, feeds the scalars and that norm through two dense layers, and gates the second halves by half of the
  dense output.  The second block ends in one scalar channel and one vector channel; the row's result is the gated
  vector channel, plane by plane, times the literal 1000.

  Everything here is stated over plain functions of `Fin` coordinates, so that a 2048-row block and the whole
  262144-row array are read through the same definitions.  The sums are written in the arrangement in which the
  features arrive separately (scalars and norm as two sums); `dot_append` and `dot_snoc` are the laws that join
  them to one sum over the concatenated features.  They hold in any commutative additive monoid, so no finiteness
  is used.
-/
import Idealize.ShloMosaic.PureOps.Ideal
import Idealize.ShloMosaic.Lib.IdealHost
import Idealize.ShloMosaic.Lib.ValueIdx

noncomputable section

namespace Cert.GatedRow

open Idealize.ShloMosaic Idealize.ShloMosaic.ValueIdx

/-- `x · σ(x)` with `σ` the logistic function, on the extended reals. -/
def silu (x : EReal) : EReal := x * Ideal.logistic x

/-- The Euclidean norm of three components, summed in the order `(a² + b²) + c²`. -/
def norm3 (a b c : EReal) : EReal := Ideal.sqrt (a * a + b * b + c * c)

/-- The literal 1000, as its binary32 word. -/
def thousand : EReal := Ideal.ofBits .f32 0x447A0000#32

/-- Column `j` of the first half of 128 columns. -/
def lo (j : Fin 64) : Fin 128 := ⟨j.val, by omega⟩
/-- Column `j` of the second half of 128 columns. -/
def hi (j : Fin 64) : Fin 128 := ⟨64 + j.val, by omega⟩

/-- The weights of both blocks, each as a function of its coordinates.  The first dense layer of each block is held
    in its two row groups: the rows that meet the scalar features and the rows that meet the norm. -/
structure Weights where
  mix1 : Fin 128 → Fin 128 → EReal
  denseS1 : Fin 128 → Fin 64 → EReal
  denseV1 : Fin 64 → Fin 64 → EReal
  bias1 : Fin 64 → EReal
  out1 : Fin 64 → Fin 128 → EReal
  obias1 : Fin 128 → EReal
  mix2 : Fin 64 → Fin 2 → EReal
  denseS2 : Fin 64 → EReal
  denseV2 : EReal
  bias2 : EReal
  out2 : Fin 2 → EReal
  obias2 : Fin 2 → EReal

variable (W : Weights) (s : Fin 128 → EReal) (v : Fin 3 → Fin 128 → EReal)

/-- Plane `a` mixed by the first block's matrix, column `g`. -/
def mixed1 (a : Fin 3) (g : Fin 128) : EReal := ∑ f : Fin 128, v a f * W.mix1 f g

/-- The norm over the three planes of the first halves. -/
def vnorm1 (j : Fin 64) : EReal := norm3 (mixed1 W v 0 (lo j)) (mixed1 W v 1 (lo j)) (mixed1 W v 2 (lo j))

/-- The first dense layer before its bias: the scalar features' sum plus the norm's sum. -/
def pre1 (j : Fin 64) : EReal := (∑ k : Fin 128, s k * W.denseS1 k j) + (∑ k : Fin 64, vnorm1 W v k * W.denseV1 k j)

/-- The hidden features of the first block. -/
def hidden1 (j : Fin 64) : EReal := silu (pre1 W s v j + W.bias1 j)

/-- The second dense layer of the first block. -/
def dense1 (g : Fin 128) : EReal := (∑ k : Fin 64, hidden1 W s v k * W.out1 k g) + W.obias1 g

/-- The scalar features leaving the first block. -/
def scalar1 (j : Fin 64) : EReal := silu (dense1 W s v (lo j))

/-- The vector features leaving the first block: the gate times the second half of the mixed plane. -/
def vector1 (a : Fin 3) (j : Fin 64) : EReal := dense1 W s v (hi j) * mixed1 W v a (hi j)

/-- Plane `a` mixed by the second block's matrix, column `e`. -/
def mixed2 (a : Fin 3) (e : Fin 2) : EReal := ∑ j : Fin 64, vector1 W s v a j * W.mix2 j e

/-- The norm over the three planes of the second block's first column. -/
def vnorm2 : EReal := norm3 (mixed2 W s v 0 0) (mixed2 W s v 1 0) (mixed2 W s v 2 0)

/-- The second block's first dense layer before its bias. -/
def pre2 : EReal := (∑ k : Fin 64, scalar1 W s v k * W.denseS2 k) + vnorm2 W s v * W.denseV2

/-- The hidden feature of the second block. -/
def hidden2 : EReal := silu (pre2 W s v + W.bias2)

/-- The second block's second dense layer. -/
def dense2 (e : Fin 2) : EReal := hidden2 W s v * W.out2 e + W.obias2 e

/-- The row's result: plane `a` of the gated vector channel, scaled. -/
def rowOut (a : Fin 3) : EReal := thousand * (dense2 W s v 1 * mixed2 W s v a 1)

/-- The weights read off the ten weight arrays as the programs receive them: the first dense layer of the first
    block is a 192-row matrix whose first 128 rows meet the scalars and whose last 64 rows meet the norm; that of the
    second block a 65-row column whose first 64 rows meet the scalars and whose last row meets the norm. -/
def argWeights (w3 : (⟨2, ![128, 128]⟩ : Shape).Idx → EReal) (w4 : (⟨2, ![192, 64]⟩ : Shape).Idx → EReal)
    (w5 : (⟨1, ![64]⟩ : Shape).Idx → EReal) (w6 : (⟨2, ![64, 128]⟩ : Shape).Idx → EReal)
    (w7 : (⟨1, ![128]⟩ : Shape).Idx → EReal) (w8 : (⟨2, ![64, 2]⟩ : Shape).Idx → EReal)
    (w9 : (⟨2, ![65, 1]⟩ : Shape).Idx → EReal) (w10 : (⟨1, ![1]⟩ : Shape).Idx → EReal)
    (w11 : (⟨2, ![1, 2]⟩ : Shape).Idx → EReal) (w12 : (⟨1, ![2]⟩ : Shape).Idx → EReal) : Weights where
  mix1 f g := w3 (ix2 f g)
  denseS1 k j := w4 (ix2 (⟨k.val, by omega⟩ : Fin 192) j)
  denseV1 k j := w4 (ix2 (⟨128 + k.val, by omega⟩ : Fin 192) j)
  bias1 j := w5 (ix1 j)
  out1 k g := w6 (ix2 k g)
  obias1 g := w7 (ix1 g)
  mix2 j e := w8 (ix2 j e)
  denseS2 k := w9 (ix2 (⟨k.val, by omega⟩ : Fin 65) (0 : Fin 1))
  denseV2 := w9 (ix2 (⟨64, by omega⟩ : Fin 65) (0 : Fin 1))
  bias2 := w10 (ix1 (0 : Fin 1))
  out2 e := w11 (ix2 (0 : Fin 1) e)
  obias2 e := w12 (ix1 e)

/-- The whole result before it is flattened: row `n`, plane `a` is the row function of row `n` of the scalars and row `n` of
    the planes. -/
def wholeResult (l0 : (⟨2, ![262144, 128]⟩ : Shape).Idx → EReal) (l1 : (⟨3, ![262144, 3, 128]⟩ : Shape).Idx → EReal) (W : Weights) :
    (⟨2, ![262144, 3]⟩ : Shape).Idx → EReal :=
  fun i => rowOut W (fun k => l0 (ix2 (i 0 : Fin 262144) k)) (fun a f => l1 (ix3 (i 0 : Fin 262144) a f)) (i 1 : Fin 3)

/-! ## The two laws that join separately summed features -/

/-- A sum over 128 + 64 concatenated features is the sum over the first 128 plus the sum over the last 64. -/
theorem dot_append {M : Type*} [AddCommMonoid M] (f : Fin 192 → M) :
    ∑ k : Fin 192, f k = (∑ k : Fin 128, f ⟨k.val, by omega⟩) + ∑ k : Fin 64, f ⟨128 + k.val, by omega⟩ := by
  have h := Fin.sum_univ_add (a := 128) (b := 64) (f : Fin (128 + 64) → M)
  exact h

/-- A sum over 64 + 1 concatenated features is the sum over the first 64 plus the last term. -/
theorem dot_snoc {M : Type*} [AddCommMonoid M] (f : Fin 65 → M) :
    ∑ k : Fin 65, f k = (∑ k : Fin 64, f ⟨k.val, by omega⟩) + f ⟨64, by omega⟩ := by
  have h := Fin.sum_univ_castSucc (M := M) (n := 64) f
  exact h

/-- The three-term sum that starts from zero is `(a + b) + c`. -/
theorem zero_add_sum3 {M : Type*} [AddCommMonoid M] (f : Fin 3 → M) : 0 + ∑ k : Fin 3, f k = f 0 + f 1 + f 2 := by
  rw [zero_add, Fin.sum_univ_three]

/-- The logistic function written out with the literal one: `1 / (1 + e^(-x))`. -/
theorem logistic_expanded (x : EReal) :
    Ideal.div (Ideal.ofBits .f32 0x3F800000#32) (Ideal.ofBits .f32 0x3F800000#32 + Ideal.exp (-x)) = Ideal.logistic x := by
  rw [Ideal.ofBits_one_f32]; rfl

end Cert.GatedRow

end
-- ==== Proof.RefRow.lean ====
/-
  The reference program read one row at a time.

  Each stage of the reference program, read at row `n` (and a plane, a column), is the corresponding stage of the row
  specification applied to the row's scalars `x0 (n, ·)`, its planes `x1 (n, ·, ·)` and the weights read off the ten
  weight arrays.  The stages are taken in program order.  The two concatenations are read piece by piece, and a
  contraction over a concatenated axis splits into the two sums the specification writes.  Only the laws of a
  commutative additive monoid and the literals zero and one are used, so nothing is assumed finite.
-/
import proofs.«114226_j16501264351434_2_alg».proof.Proof.Gen.ReferenceIdeal.Read
import proofs.«114226_j16501264351434_2_alg».proof.Proof.RowSpec
import Idealize.ShloMosaic.Lib.ValueIdx
import Idealize.ShloMosaic.Lib.Pipeline.Value
import Idealize.ShloMosaic.PureOps.Ideal.Laws

noncomputable section

namespace Cert.GatedRow.Ref

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The twelve arrays the program receives: the scalar features, the vector features and the ten weight arrays. -/
structure Inputs where
  x0 : (⟨S262144x128, .f32⟩ : BufTy).Contents (Elt Ideal)
  x1 : (⟨S262144x3x128, .f32⟩ : BufTy).Contents (Elt Ideal)
  x3 : (⟨S128x128, .f32⟩ : BufTy).Contents (Elt Ideal)
  x4 : (⟨S192x64, .f32⟩ : BufTy).Contents (Elt Ideal)
  x5 : (⟨S64, .f32⟩ : BufTy).Contents (Elt Ideal)
  x6 : (⟨S64x128, .f32⟩ : BufTy).Contents (Elt Ideal)
  x7 : (⟨S128, .f32⟩ : BufTy).Contents (Elt Ideal)
  x8 : (⟨S64x2, .f32⟩ : BufTy).Contents (Elt Ideal)
  x9 : (⟨S65x1, .f32⟩ : BufTy).Contents (Elt Ideal)
  x10 : (⟨S1, .f32⟩ : BufTy).Contents (Elt Ideal)
  x11 : (⟨S1x2, .f32⟩ : BufTy).Contents (Elt Ideal)
  x12 : (⟨S2, .f32⟩ : BufTy).Contents (Elt Ideal)

namespace Inputs
/-- The weights read off the ten weight arrays. -/
abbrev W (A : Inputs) : Weights := argWeights A.x3 A.x4 A.x5 A.x6 A.x7 A.x8 A.x9 A.x10 A.x11 A.x12
/-- The scalar features of row `n`. -/
abbrev s (A : Inputs) (n : Fin 262144) : Fin 128 → EReal := fun k => A.x0 (ix2 n k)
/-- The three planes of vector features of row `n`. -/
abbrev v (A : Inputs) (n : Fin 262144) : Fin 3 → Fin 128 → EReal := fun a f => A.x1 (ix3 n a f)
end Inputs

/-- Two indices of rank one, two or three are equal when their coordinates are. -/
local macro "idx1" : tactic =>
  `(tactic| exact funext fun d => Fin.ext (by match d with | ⟨0, _⟩ => rfl))
local macro "idx2" : tactic =>
  `(tactic| exact funext fun d => Fin.ext (by match d with | ⟨0, _⟩ => rfl | ⟨1, _⟩ => rfl))
local macro "idx3" : tactic =>
  `(tactic| exact funext fun d => Fin.ext (by match d with | ⟨0, _⟩ => rfl | ⟨1, _⟩ => rfl | ⟨2, _⟩ => rfl))

variable (A : Inputs)

/-! ## The first block -/

/-- Plane `a` of row `n` mixed by the first matrix, column `g`. -/
theorem v0_eq (n : Fin 262144) (a : Fin 3) (g : Fin 128) :
    val_main_v0 (F := Ideal) A.x1 A.x3 (ix3 n a g) = mixed1 A.W (A.v n) a g := by
  have el : ∀ k : Fin 128, lidx_main_v0 (ix3 n a g) k = ix3 n a k := fun k => by idx3
  have er : ∀ k : Fin 128, ridx_main_v0 (ix3 n a g) k = ix2 k g := fun k => by idx2
  rw [val_main_v0_apply]
  unfold mixed1
  refine Finset.sum_congr rfl fun k _ => ?_
  rw [el, er]
  rfl

/-- The norm over the three planes of the first halves: the sum from zero of the three squares, then the root. -/
theorem v5_eq (n : Fin 262144) (j : Fin 64) :
    val_main_v5 (F := Ideal) A.x1 A.x3 (ix2 n j) = vnorm1 A.W (A.v n) j := by
  have sq : ∀ a : Fin 3, val_main_v3 (F := Ideal) A.x1 A.x3 (idx_main_v4 (ix2 n j) a)
      = mixed1 A.W (A.v n) a (lo j) * mixed1 A.W (A.v n) a (lo j) := by
    intro a
    have e : idx_main_v1 (idx_main_v4 (ix2 n j) a) = ix3 n a (lo j) := by idx3
    rw [val_main_v3_apply, Ideal.mulf_def, val_main_v1_apply, e, v0_eq]
  rw [val_main_v5_apply, Ideal.hostUnary_sqrt_def, val_main_v4_apply, val_main_cst_apply, Ideal.ofBits_def,
    Ideal.ofBits_zero_f32, zero_add_sum3, sq 0, sq 1, sq 2]
  rfl

/-- The first 128 columns of the concatenated features are the scalars. -/
theorem v6_left (n : Fin 262144) (k : Fin 128) :
    val_main_v6 (F := Ideal) A.x0 A.x1 A.x3 (ix2 n (⟨k.val, by omega⟩ : Fin 192)) = A.x0 (ix2 n k) := by
  unfold val_main_v6
  exact concatenate_pair_apply_left _ _ _ concatenates_S262144x128_S262144x64_S262144x192_d1 (ix2 n _) rfl (ix2 n k)
    (fun b => by match b with | ⟨0, _⟩ => rfl | ⟨1, _⟩ => rfl)

/-- The last 64 columns of the concatenated features are the norms. -/
theorem v6_right (n : Fin 262144) (k : Fin 64) :
    val_main_v6 (F := Ideal) A.x0 A.x1 A.x3 (ix2 n (⟨128 + k.val, by omega⟩ : Fin 192))
      = val_main_v5 (F := Ideal) A.x1 A.x3 (ix2 n k) := by
  unfold val_main_v6
  exact concatenate_pair_apply_right _ _ _ concatenates_S262144x128_S262144x64_S262144x192_d1 (ix2 n _) rfl rfl (ix2 n k)
    (fun b hb => by match b, hb with | ⟨0, _⟩, _ => rfl | ⟨1, _⟩, hb => exact absurd rfl hb)
    (by show k.val + 128 = 128 + k.val; omega)

/-- The first dense layer before its bias: the sum over the 192 concatenated features splits in the scalars' sum and
    the norms' sum. -/
theorem v7_eq (n : Fin 262144) (j : Fin 64) :
    val_main_v7 (F := Ideal) A.x0 A.x1 A.x3 A.x4 (ix2 n j) = pre1 A.W (A.s n) (A.v n) j := by
  have el : ∀ q : Fin 192, lidx_main_v7 (ix2 n j) q = ix2 n q := fun q => by idx2
  have er : ∀ q : Fin 192, ridx_main_v7 (ix2 n j) q = ix2 q j := fun q => by idx2
  rw [val_main_v7_apply, dot_append]
  unfold pre1
  refine congrArg₂ (fun a b : EReal => a + b) (Finset.sum_congr rfl fun k _ => ?_) (Finset.sum_congr rfl fun k _ => ?_)
  · rw [el, er, v6_left]
    rfl
  · rw [el, er, v6_right, v5_eq]
    rfl

/-- The inlined logistic gate: `x · (1 / (1 + e^(-x)))`, with the literal one, is `silu x`. -/
theorem silu_expanded (x : EReal) :
    x * Ideal.div (Ideal.ofBits .f32 0x3F800000#32) (Ideal.ofBits .f32 0x3F800000#32 + Ideal.exp (-x)) = silu x := by
  rw [logistic_expanded]
  rfl

/-- The first dense layer with its bias, which is broadcast along the rows. -/
theorem v10_eq (n : Fin 262144) (j : Fin 64) :
    val_main_v10 (F := Ideal) A.x0 A.x1 A.x3 A.x4 A.x5 (ix2 n j) = pre1 A.W (A.s n) (A.v n) j + A.W.bias1 j := by
  have e : idx_main_v8 (idx_main_v9 (ix2 n j)) = ix1 j := by idx1
  rw [val_main_v10_apply, Ideal.addf_def, v7_eq, val_main_v9_apply, val_main_v8_apply, e]
  rfl

/-- The hidden features of the first block. -/
theorem v11_eq (n : Fin 262144) (j : Fin 64) :
    val_main_v11 (F := Ideal) A.x0 A.x1 A.x3 A.x4 A.x5 (ix2 n j) = hidden1 A.W (A.s n) (A.v n) j := by
  rw [val_main_v11_apply, val_main_call0_v5_apply, val_main_call0_v4_apply, val_main_call0_cst_0_apply,
    val_main_call0_v3_apply, val_main_call0_v2_apply, val_main_call0_cst_apply, val_main_call0_v1_apply,
    val_main_call0_v0_apply, Ideal.mulf_def, Ideal.hostDivf_def, Ideal.addf_def, Ideal.hostUnary_exp_def,
    Ideal.hostNegf_def, Ideal.negf_def, Ideal.ofBits_def, silu_expanded, v10_eq]
  rfl

/-- The second dense layer of the first block, with its bias broadcast along the rows. -/
theorem v15_eq (n : Fin 262144) (g : Fin 128) :
    val_main_v15 (F := Ideal) A.x0 A.x1 A.x3 A.x4 A.x5 A.x6 A.x7 (ix2 n g) = dense1 A.W (A.s n) (A.v n) g := by
  have el : ∀ k : Fin 64, lidx_main_v12 (ix2 n g) k = ix2 n k := fun k => by idx2
  have er : ∀ k : Fin 64, ridx_main_v12 (ix2 n g) k = ix2 k g := fun k => by idx2
  have eb : idx_main_v13 (idx_main_v14 (ix2 n g)) = ix1 g := by idx1
  rw [val_main_v15_apply, Ideal.addf_def, val_main_v12_apply, val_main_v14_apply, val_main_v13_apply, eb]
  unfold dense1
  refine congrArg₂ (fun a b : EReal => a + b) (Finset.sum_congr rfl fun k _ => ?_) rfl
  rw [el, er, v11_eq]
  rfl

/-- The first half of the dense output. -/
theorem v16_eq (n : Fin 262144) (j : Fin 64) :
    val_main_v16 (F := Ideal) A.x0 A.x1 A.x3 A.x4 A.x5 A.x6 A.x7 (ix2 n j) = dense1 A.W (A.s n) (A.v n) (lo j) := by
  have e : idx_main_v16 (ix2 n j) = ix2 n (lo j) := by idx2
  rw [val_main_v16_apply, e, v15_eq]

/-- The scalar features leaving the first block. -/
theorem v21_eq (n : Fin 262144) (j : Fin 64) :
    val_main_v21 (F := Ideal) A.x0 A.x1 A.x3 A.x4 A.x5 A.x6 A.x7 (ix2 n j) = scalar1 A.W (A.s n) (A.v n) j := by
  rw [val_main_v21_apply, val_main_call1_v5_apply, val_main_call1_v4_apply, val_main_call1_cst_0_apply,
    val_main_call1_v3_apply, val_main_call1_v2_apply, val_main_call1_cst_apply, val_main_call1_v1_apply,
    val_main_call1_v0_apply, Ideal.mulf_def, Ideal.hostDivf_def, Ideal.addf_def, Ideal.hostUnary_exp_def,
    Ideal.hostNegf_def, Ideal.negf_def, Ideal.ofBits_def, silu_expanded, v16_eq]
  rfl

/-- The vector features leaving the first block: the second half of the dense output, broadcast over the planes,
    times the second half of the mixed plane. -/
theorem v20_eq (n : Fin 262144) (a : Fin 3) (j : Fin 64) :
    val_main_v20 (F := Ideal) A.x0 A.x1 A.x3 A.x4 A.x5 A.x6 A.x7 (ix3 n a j) = vector1 A.W (A.s n) (A.v n) a j := by
  have eg : idx_main_v17 (idx_main_v18 (idx_main_v19 (ix3 n a j))) = ix2 n (hi j) := by idx2
  have ev : idx_main_v2 (ix3 n a j) = ix3 n a (hi j) := by idx3
  rw [val_main_v20_apply, Ideal.mulf_def, val_main_v19_apply, val_main_v18_apply, val_main_v17_apply, eg, v15_eq,
    val_main_v2_apply, ev, v0_eq]
  rfl

/-! ## The second block -/

/-- Plane `a` of the first block's vector features mixed by the second matrix, column `e`. -/
theorem v22_eq (n : Fin 262144) (a : Fin 3) (e : Fin 2) :
    val_main_v22 (F := Ideal) A.x0 A.x1 A.x3 A.x4 A.x5 A.x6 A.x7 A.x8 (ix3 n a e) = mixed2 A.W (A.s n) (A.v n) a e := by
  have el : ∀ k : Fin 64, lidx_main_v22 (ix3 n a e) k = ix3 n a k := fun k => by idx3
  have er : ∀ k : Fin 64, ridx_main_v22 (ix3 n a e) k = ix2 k e := fun k => by idx2
  rw [val_main_v22_apply]
  unfold mixed2
  refine Finset.sum_congr rfl fun k _ => ?_
  rw [el, er, v20_eq]
  rfl

/-- The norm over the three planes of the second block's first column. -/
theorem v27_eq (n : Fin 262144) :
    val_main_v27 (F := Ideal) A.x0 A.x1 A.x3 A.x4 A.x5 A.x6 A.x7 A.x8 (ix2 n (0 : Fin 1)) = vnorm2 A.W (A.s n) (A.v n) := by
  have sq : ∀ a : Fin 3, val_main_v25 (F := Ideal) A.x0 A.x1 A.x3 A.x4 A.x5 A.x6 A.x7 A.x8 (idx_main_v26 (ix2 n (0 : Fin 1)) a)
      = mixed2 A.W (A.s n) (A.v n) a 0 * mixed2 A.W (A.s n) (A.v n) a 0 := by
    intro a
    have e : idx_main_v23 (idx_main_v26 (ix2 n (0 : Fin 1)) a) = ix3 n a (0 : Fin 2) := by idx3
    rw [val_main_v25_apply, Ideal.mulf_def, val_main_v23_apply, e, v22_eq]
  rw [val_main_v27_apply, Ideal.hostUnary_sqrt_def, val_main_v26_apply, val_main_cst_0_apply, Ideal.ofBits_def,
    Ideal.ofBits_zero_f32, zero_add_sum3, sq 0, sq 1, sq 2]
  rfl

/-- The first 64 columns of the second concatenation are the first block's scalar features. -/
theorem v28_left (n : Fin 262144) (k : Fin 64) :
    val_main_v28 (F := Ideal) A.x0 A.x1 A.x3 A.x4 A.x5 A.x6 A.x7 A.x8 (ix2 n (⟨k.val, by omega⟩ : Fin 65))
      = val_main_v21 (F := Ideal) A.x0 A.x1 A.x3 A.x4 A.x5 A.x6 A.x7 (ix2 n k) := by
  unfold val_main_v28
  exact concatenate_pair_apply_left _ _ _ concatenates_S262144x64_S262144x1_S262144x65_d1 (ix2 n _) rfl (ix2 n k)
    (fun b => by match b with | ⟨0, _⟩ => rfl | ⟨1, _⟩ => rfl)

/-- Its last column is the norm. -/
theorem v28_right (n : Fin 262144) :
    val_main_v28 (F := Ideal) A.x0 A.x1 A.x3 A.x4 A.x5 A.x6 A.x7 A.x8 (ix2 n (⟨64, by omega⟩ : Fin 65))
      = val_main_v27 (F := Ideal) A.x0 A.x1 A.x3 A.x4 A.x5 A.x6 A.x7 A.x8 (ix2 n (0 : Fin 1)) := by
  unfold val_main_v28
  exact concatenate_pair_apply_right _ _ _ concatenates_S262144x64_S262144x1_S262144x65_d1 (ix2 n _) rfl rfl
    (ix2 n (0 : Fin 1))
    (fun b hb => by match b, hb with | ⟨0, _⟩, _ => rfl | ⟨1, _⟩, hb => exact absurd rfl hb)
    rfl

/-- The second block's first dense layer before its bias: the sum over the 65 concatenated features splits in the
    scalars' sum and the norm's term. -/
theorem v29_eq (n : Fin 262144) :
    val_main_v29 (F := Ideal) A.x0 A.x1 A.x3 A.x4 A.x5 A.x6 A.x7 A.x8 A.x9 (ix2 n (0 : Fin 1)) = pre2 A.W (A.s n) (A.v n) := by
  have el : ∀ q : Fin 65, lidx_main_v29 (ix2 n (0 : Fin 1)) q = ix2 n q := fun q => by idx2
  have er : ∀ q : Fin 65, ridx_main_v29 (ix2 n (0 : Fin 1)) q = ix2 q (0 : Fin 1) := fun q => by idx2
  rw [val_main_v29_apply, dot_snoc]
  unfold pre2
  refine congrArg₂ (fun a b : EReal => a + b) (Finset.sum_congr rfl fun k _ => ?_) ?_
  · rw [el, er, v28_left, v21_eq]
    rfl
  · rw [el, er, v28_right, v27_eq]
    rfl

/-- The second block's first dense layer with its bias. -/
theorem v32_eq (n : Fin 262144) :
    val_main_v32 (F := Ideal) A.x0 A.x1 A.x3 A.x4 A.x5 A.x6 A.x7 A.x8 A.x9 A.x10 (ix2 n (0 : Fin 1))
      = pre2 A.W (A.s n) (A.v n) + A.W.bias2 := by
  have e : idx_main_v30 (idx_main_v31 (ix2 n (0 : Fin 1))) = ix1 (0 : Fin 1) := by idx1
  rw [val_main_v32_apply, Ideal.addf_def, v29_eq, val_main_v31_apply, val_main_v30_apply, e]
  rfl

/-- The hidden feature of the second block. -/
theorem v33_eq (n : Fin 262144) :
    val_main_v33 (F := Ideal) A.x0 A.x1 A.x3 A.x4 A.x5 A.x6 A.x7 A.x8 A.x9 A.x10 (ix2 n (0 : Fin 1))
      = hidden2 A.W (A.s n) (A.v n) := by
  rw [val_main_v33_apply, val_main_call2_v5_apply, val_main_call2_v4_apply, val_main_call2_cst_0_apply,
    val_main_call2_v3_apply, val_main_call2_v2_apply, val_main_call2_cst_apply, val_main_call2_v1_apply,
    val_main_call2_v0_apply, Ideal.mulf_def, Ideal.hostDivf_def, Ideal.addf_def, Ideal.hostUnary_exp_def,
    Ideal.hostNegf_def, Ideal.negf_def, Ideal.ofBits_def, silu_expanded, v32_eq]
  rfl

/-- The second block's second dense layer: a one-term sum, plus the bias broadcast along the rows. -/
theorem v37_eq (n : Fin 262144) (e : Fin 2) :
    val_main_v37 (F := Ideal) A.x0 A.x1 A.x3 A.x4 A.x5 A.x6 A.x7 A.x8 A.x9 A.x10 A.x11 A.x12 (ix2 n e)
      = dense2 A.W (A.s n) (A.v n) e := by
  have el : lidx_main_v34 (ix2 n e) (0 : Fin 1) = ix2 n (0 : Fin 1) := by idx2
  have er : ridx_main_v34 (ix2 n e) (0 : Fin 1) = ix2 (0 : Fin 1) e := by idx2
  have eb : idx_main_v35 (idx_main_v36 (ix2 n e)) = ix1 e := by idx1
  rw [val_main_v37_apply, Ideal.addf_def, val_main_v34_apply, Fin.sum_univ_one, el, er, v33_eq, val_main_v36_apply,
    val_main_v35_apply, eb]
  rfl

/-- The result at row `n`, plane `a`: the gate (the second column of the dense output, broadcast over the planes)
    times the second column of the mixed plane, read through the reshape that drops the unit axis, times the literal
    1000. -/
theorem v45_eq (n : Fin 262144) (a : Fin 3) :
    val_main_v45 (F := Ideal) A.x0 A.x1 A.x3 A.x4 A.x5 A.x6 A.x7 A.x8 A.x9 A.x10 A.x11 A.x12 (ix2 n a)
      = rowOut A.W (A.s n) (A.v n) a := by
  have er : idx_main_v43 (ix2 n a) = ix3 n a (0 : Fin 1) := funext fun d => Fin.ext (by
    have hn := n.isLt
    have ha := a.isLt
    match d with
    | ⟨0, _⟩ => show (n.val * 3 + a.val) / 3 = n.val; omega
    | ⟨1, _⟩ => show (n.val * 3 + a.val) / 1 % 3 = a.val; omega
    | ⟨2, _⟩ => rfl)
  have eg : idx_main_v39 (idx_main_v40 (idx_main_v41 (ix3 n a (0 : Fin 1)))) = ix2 n (1 : Fin 2) := by idx2
  have ev : idx_main_v24 (ix3 n a (0 : Fin 1)) = ix3 n a (1 : Fin 2) := by idx3
  rw [val_main_v45_apply, Ideal.mulf_def, val_main_v44_apply, val_main_cst_1_apply, Ideal.ofBits_def, val_main_v43_apply,
    er, val_main_v42_apply, Ideal.mulf_def, val_main_v41_apply, val_main_v40_apply, val_main_v39_apply, eg, v37_eq,
    val_main_v24_apply, ev, v22_eq]
  rfl

/-! ## The statement over the twelve arrays -/

/-- The reference program's result at row `n`, plane `a`, is the row specification's result for that row. -/
theorem ref_row (x0 : (⟨S262144x128, .f32⟩ : BufTy).Contents (Elt Ideal))
    (x1 : (⟨S262144x3x128, .f32⟩ : BufTy).Contents (Elt Ideal)) (x3 : (⟨S128x128, .f32⟩ : BufTy).Contents (Elt Ideal))
    (x4 : (⟨S192x64, .f32⟩ : BufTy).Contents (Elt Ideal)) (x5 : (⟨S64, .f32⟩ : BufTy).Contents (Elt Ideal))
    (x6 : (⟨S64x128, .f32⟩ : BufTy).Contents (Elt Ideal)) (x7 : (⟨S128, .f32⟩ : BufTy).Contents (Elt Ideal))
    (x8 : (⟨S64x2, .f32⟩ : BufTy).Contents (Elt Ideal)) (x9 : (⟨S65x1, .f32⟩ : BufTy).Contents (Elt Ideal))
    (x10 : (⟨S1, .f32⟩ : BufTy).Contents (Elt Ideal)) (x11 : (⟨S1x2, .f32⟩ : BufTy).Contents (Elt Ideal))
    (x12 : (⟨S2, .f32⟩ : BufTy).Contents (Elt Ideal)) (n : Fin 262144) (a : Fin 3) :
    Cert.ReferenceIdeal.Read.val_main_v45 (F := Ideal) x0 x1 x3 x4 x5 x6 x7 x8 x9 x10 x11 x12 (ix2 n a)
      = Cert.GatedRow.rowOut (Cert.GatedRow.argWeights x3 x4 x5 x6 x7 x8 x9 x10 x11 x12) (fun k => x0 (ix2 n k))
          (fun a f => x1 (ix3 n a f)) a :=
  v45_eq ⟨x0, x1, x3, x4, x5, x6, x7, x8, x9, x10, x11, x12⟩ n a

end Cert.GatedRow.Ref

end
-- ==== Proof.KernelRow.lean ====
/-
  The kernel body's arithmetic, read one row at a time.

  Every value the body computes has 2048 rows, and row `r` of each depends only on row `r` of the loaded blocks and on
  the weights.  The lemmas below read each stage at row `r`: a block product into a zero accumulator is the sum over the
  contracted coordinate of the row's entries times the weight's column; a slice of 64 of 128 columns reads the column
  shifted by the slice's offset; a one-row weight broadcast over the rows reads its one row.  Changes of float format
  are the identity on the extended reals.
-/
import proofs.«114226_j16501264351434_2_alg».proof.Proof.Gen.KernelIdeal.Skeleton
import proofs.«114226_j16501264351434_2_alg».proof.Proof.RowSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GatedRow.Kernel

open Idealize.ShloMosaic Idealize.ShloMosaic.ValueIdx Cert.KernelIdeal Cert.KernelIdeal.Gen Cert.GatedRow

/-! ## Layout operations at the body's literal shapes -/

/-- A loaded plane `[2048, 1, 128]` cast to `[2048, 128]` reads, at `(r, f)`, the plane at `(r, 0, f)`. -/
theorem plane_cast (v : Vec Ideal S2048x1x128 .f32) (r : Fin 2048) (f : Fin 128) :
    shapeCast S2048x128 v shapeCasts_S2048x1x128_S2048x128 (ix2 r f) = v (ix3 r (0 : Fin 1) f) :=
  shapeCast_apply v _ _ _ (by
    rw [Shape.rowMajor_val_three, Shape.rowMajor_val_two]
    show (r.val * 1 + 0) * 128 + f.val = r.val * 128 + f.val
    omega)

/-- The first 64 of 128 columns. -/
theorem cols_lo (x : FVec Ideal S2048x128 .f32) (r : Fin 2048) (j : Fin 64) :
    extractStridedSlice S2048x64 ![0, 0] x slices_S2048x128_o0_0_S2048x64 (ix2 r j) = x (ix2 r (lo j)) :=
  extractStridedSlice_apply _ _ _ _ _ (fun ax => by
    match ax with
    | ⟨0, _⟩ => exact (Nat.zero_add _).symm
    | ⟨1, _⟩ => exact (Nat.zero_add _).symm)

/-- The last 64 of 128 columns. -/
theorem cols_hi (x : FVec Ideal S2048x128 .f32) (r : Fin 2048) (j : Fin 64) :
    extractStridedSlice S2048x64 ![0, 64] x slices_S2048x128_o0_64_S2048x64 (ix2 r j) = x (ix2 r (hi j)) :=
  extractStridedSlice_apply _ _ _ _ _ (fun ax => by
    match ax with
    | ⟨0, _⟩ => exact (Nat.zero_add _).symm
    | ⟨1, _⟩ => rfl)

/-! ## Block products as row sums -/

/-- The left operand's row coordinate is the result's row. -/
theorem mm_128_128_row (i : S2048x128.Idx) (q : dot_S2048x128_S128x128_S2048x128_1_0_0_1_n_n.contr.Idx) : (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
/-- The right operand's column coordinate is the result's column. -/
theorem mm_128_128_col (i : S2048x128.Idx) (q : dot_S2048x128_S128x128_S2048x128_1_0_0_1_n_n.contr.Idx) : (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The 2048×128 by 128×128 product into a zero accumulator, at row `r` and column `g`: the sum over the 128 contracted
    coordinates of the left row times the right column. -/
theorem mm_128_128 (lhs : FVec Ideal S2048x128 .bf16) (rhs : FVec Ideal S128x128 .bf16) (r : Fin 2048) (g : Fin 128) :
    matmul dot_S2048x128_S128x128_S2048x128_1_0_0_1_n_n none lhs rhs (constant S2048x128 .f32 0x00000000#32) (ix2 r g) = ∑ k : Fin 128, lhs (ix2 r k) * rhs (ix2 k g) := by
  show FloatOps.matmul _ _ _ _ _ _ = _
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 r g) ((ValueIdx.contrEquiv1 dot_S2048x128_S128x128_S2048x128_1_0_0_1_n_n 128 rfl rfl).symm k) = ix2 r k := funext fun a => Fin.ext (by
    match a with
    | ⟨0, _⟩ => exact mm_128_128_row _ _
    | ⟨1, _⟩ => exact (dot_S2048x128_S128x128_S2048x128_1_0_0_1_n_n.lhsIdx_val_of_single rfl _ _).trans hk)
  have er : dot_S2048x128_S128x128_S2048x128_1_0_0_1_n_n.rhsIdx (ix2 r g) ((ValueIdx.contrEquiv1 dot_S2048x128_S128x128_S2048x128_1_0_0_1_n_n 128 rfl rfl).symm k) = ix2 k g := funext fun a => Fin.ext (by
    match a with
    | ⟨0, _⟩ => exact (dot_S2048x128_S128x128_S2048x128_1_0_0_1_n_n.rhsIdx_val_of_single rfl _ _).trans hk
    | ⟨1, _⟩ => exact mm_128_128_col _ _)
  rw [el, er]

/-- The left operand's row coordinate is the result's row. -/
theorem mm_128_64_row (i : S2048x64.Idx) (q : dot_S2048x128_S128x64_S2048x64_1_0_0_1_n_n.contr.Idx) : (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
/-- The right operand's column coordinate is the result's column. -/
theorem mm_128_64_col (i : S2048x64.Idx) (q : dot_S2048x128_S128x64_S2048x64_1_0_0_1_n_n.contr.Idx) : (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

/-- The 2048×128 by 128×64 product into a zero accumulator, at row `r` and column `g`: the sum over the 128 contracted
    coordinates of the left row times the right column. -/
theorem mm_128_64 (lhs : FVec Ideal S2048x128 .bf16) (rhs : FVec Ideal S128x64 .bf16) (r : Fin 2048) (g : Fin 64) :
    matmul dot_S2048x128_S128x64_S2048x64_1_0_0_1_n_n none lhs rhs (constant S2048x64 .f32 0x00000000#32) (ix2 r g) = ∑ k : Fin 128, lhs (ix2 r k) * rhs (ix2 k g) := by
  show FloatOps.matmul _ _ _ _ _ _ = _
  rw [Ideal.matmul_constant_zero_apply, ← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 r g) ((ValueIdx.contrEquiv1 dot_S2048x128_S128x64_S2048x64_1_0_0_1_n_n 128 rfl rfl).symm k) = ix2 r k := funext fun a => Fin.ext (by
    match a with
    | ⟨0, _⟩ => exact mm_128_64_row _ _
    | ⟨1, _⟩ => exact (dot_S2048x128_S128x64_S2048x64_1_0_0_1_n_n.lhsIdx_val_of_single rfl _ _).trans hk)
  have er : dot_S2048x128_S128x64_S2048x64_1_0_0_1_n_n.rhsIdx (ix2 r g) ((ValueIdx.contrEquiv1 dot_S2048x128_S128x64_S2048x64_1_0_0_1_n_n 128 rfl rfl).symm k) = ix2 k g := funext fun a => Fin.ext (by
    match a with
    | ⟨0, _⟩ => exact (dot_S2048x128_S128x64_S2048x64_1_0_0_1_n_n.rhsIdx_val_of_single rfl _ _).trans hk
    | ⟨1, _⟩ => exact mm_128_64_col _ _)
  rw [el, er]

/-- The left operand's row coordinate is the result's row. -/
theorem mm_64_64_row (i : S2048x64.Idx) (q : dot_S2048x64_S64x64_S2048x64_1_0_0_1_n_n.contr.Idx) : (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
/-- The right operand's column coordinate is the result's column. -/
theorem mm_64_64_col (i : S2048x64.Idx) (q : dot_S2048x64_S64x64_S2048x64_1_0_0_1_n_n.contr.Idx) : (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The 2048×64 by 64×64 product into a zero accumulator, at row `r` and column `g`: the sum over the 64 contracted
    coordinates of the left row times the right column. -/
theorem mm_64_64 (lhs : FVec Ideal S2048x64 .bf16) (rhs : FVec Ideal S64x64 .bf16) (r : Fin 2048) (g : Fin 64) :
    matmul dot_S2048x64_S64x64_S2048x64_1_0_0_1_n_n none lhs rhs (constant S2048x64 .f32 0x00000000#32) (ix2 r g) = ∑ k : Fin 64, lhs (ix2 r k) * rhs (ix2 k g) := by
  show FloatOps.matmul _ _ _ _ _ _ = _
  rw [Ideal.matmul_constant_zero_apply, ← Equiv.sum_comp (ValueIdx.contrEquiv1 dot_S2048x64_S64x64_S2048x64_1_0_0_1_n_n 64 rfl rfl).symm]
  refine Finset.sum_congr rfl fun k _ => ?_
  have hk := ValueIdx.contrEquiv1_symm_val dot_S2048x64_S64x64_S2048x64_1_0_0_1_n_n 64 rfl rfl k
  have el : dot_S2048x64_S64x64_S2048x64_1_0_0_1_n_n.lhsIdx (ix2 r g) ((ValueIdx.contrEquiv1 dot_S2048x64_S64x64_S2048x64_1_0_0_1_n_n 64 rfl rfl).symm k) = ix2 r k := funext fun a => Fin.ext (by
    match a with
    | ⟨0, _⟩ => exact mm_64_64_row _ _
    | ⟨1, _⟩ => exact (dot_S2048x64_S64x64_S2048x64_1_0_0_1_n_n.lhsIdx_val_of_single rfl _ _).trans hk)
  have er : dot_S2048x64_S64x64_S2048x64_1_0_0_1_n_n.rhsIdx (ix2 r g) ((ValueIdx.contrEquiv1 dot_S2048x64_S64x64_S2048x64_1_0_0_1_n_n 64 rfl rfl).symm k) = ix2 k g := funext fun a => Fin.ext (by
    match a with
    | ⟨0, _⟩ => exact (dot_S2048x64_S64x64_S2048x64_1_0_0_1_n_n.rhsIdx_val_of_single rfl _ _).trans hk
    | ⟨1, _⟩ => exact mm_64_64_col _ _)
  rw [el, er]

/-- The left operand's row coordinate is the result's row. -/
theorem mm_64_128_row (i : S2048x128.Idx) (q : dot_S2048x64_S64x128_S2048x128_1_0_0_1_n_n.contr.Idx) : (dot_S2048x64_S64x128_S2048x128_1_0_0_1_n_n.lhsIdx i q 0).val = (i 0).val := by
  unfold DotDims.lhsIdx
  rw [dif_neg (show ¬(0 : Fin S2048x64.rank) ∈ dot_S2048x64_S64x128_S2048x128_1_0_0_1_n_n.lhsBatch by decide), dif_pos (show (0 : Fin S2048x64.rank) ∈ dot_S2048x64_S64x128_S2048x128_1_0_0_1_n_n.lhsNonContracting by decide)]
  rfl
/-- The right operand's column coordinate is the result's column. -/
theorem mm_64_128_col (i : S2048x128.Idx) (q : dot_S2048x64_S64x128_S2048x128_1_0_0_1_n_n.contr.Idx) : (dot_S2048x64_S64x128_S2048x128_1_0_0_1_n_n.rhsIdx i q 1).val = (i 1).val := by
  unfold DotDims.rhsIdx
  rw [dif_neg (show ¬(1 : Fin S64x128.rank) ∈ dot_S2048x64_S64x128_S2048x128_1_0_0_1_n_n.rhsBatch by decide), dif_pos (show (1 : Fin S64x128.rank) ∈ dot_S2048x64_S64x128_S2048x128_1_0_0_1_n_n.rhsNonContracting by decide)]
  rfl

/-- The 2048×64 by 64×128 product into a zero accumulator, at row `r` and column `g`: the sum over the 64 contracted
    coordinates of the left row times the right column. -/
theorem mm_64_128 (lhs : FVec Ideal S2048x64 .bf16) (rhs : FVec Ideal S64x128 .bf16) (r : Fin 2048) (g : Fin 128) :
    matmul dot_S2048x64_S64x128_S2048x128_1_0_0_1_n_n none lhs rhs (constant S2048x128 .f32 0x00000000#32) (ix2 r g) = ∑ k : Fin 64, lhs (ix2 r k) * rhs (ix2 k g) := by
  show FloatOps.matmul _ _ _ _ _ _ = _
  rw [Ideal.matmul_constant_zero_apply, ← Equiv.sum_comp (ValueIdx.contrEquiv1 dot_S2048x64_S64x128_S2048x128_1_0_0_1_n_n 64 rfl rfl).symm]
  refine Finset.sum_congr rfl fun k _ => ?_
  have hk := ValueIdx.contrEquiv1_symm_val dot_S2048x64_S64x128_S2048x128_1_0_0_1_n_n 64 rfl rfl k
  have el : dot_S2048x64_S64x128_S2048x128_1_0_0_1_n_n.lhsIdx (ix2 r g) ((ValueIdx.contrEquiv1 dot_S2048x64_S64x128_S2048x128_1_0_0_1_n_n 64 rfl rfl).symm k) = ix2 r k := funext fun a => Fin.ext (by
    match a with
    | ⟨0, _⟩ => exact mm_64_128_row _ _
    | ⟨1, _⟩ => exact (dot_S2048x64_S64x128_S2048x128_1_0_0_1_n_n.lhsIdx_val_of_single rfl _ _).trans hk)
  have er : dot_S2048x64_S64x128_S2048x128_1_0_0_1_n_n.rhsIdx (ix2 r g) ((ValueIdx.contrEquiv1 dot_S2048x64_S64x128_S2048x128_1_0_0_1_n_n 64 rfl rfl).symm k) = ix2 k g := funext fun a => Fin.ext (by
    match a with
    | ⟨0, _⟩ => exact (dot_S2048x64_S64x128_S2048x128_1_0_0_1_n_n.rhsIdx_val_of_single rfl _ _).trans hk
    | ⟨1, _⟩ => exact mm_64_128_col _ _)
  rw [el, er]

/-- The left operand's row coordinate is the result's row. -/
theorem mm_64_2_row (i : S2048x2.Idx) (q : dot_S2048x64_S64x2_S2048x2_1_0_0_1_n_n.contr.Idx) : (dot_S2048x64_S64x2_S2048x2_1_0_0_1_n_n.lhsIdx i q 0).val = (i 0).val := by
  unfold DotDims.lhsIdx
  rw [dif_neg (show ¬(0 : Fin S2048x64.rank) ∈ dot_S2048x64_S64x2_S2048x2_1_0_0_1_n_n.lhsBatch by decide), dif_pos (show (0 : Fin S2048x64.rank) ∈ dot_S2048x64_S64x2_S2048x2_1_0_0_1_n_n.lhsNonContracting by decide)]
  rfl
/-- The right operand's column coordinate is the result's column. -/
theorem mm_64_2_col (i : S2048x2.Idx) (q : dot_S2048x64_S64x2_S2048x2_1_0_0_1_n_n.contr.Idx) : (dot_S2048x64_S64x2_S2048x2_1_0_0_1_n_n.rhsIdx i q 1).val = (i 1).val := by
  unfold DotDims.rhsIdx
  rw [dif_neg (show ¬(1 : Fin S64x2.rank) ∈ dot_S2048x64_S64x2_S2048x2_1_0_0_1_n_n.rhsBatch by decide), dif_pos (show (1 : Fin S64x2.rank) ∈ dot_S2048x64_S64x2_S2048x2_1_0_0_1_n_n.rhsNonContracting by decide)]
  rfl

/-- The 2048×64 by 64×2 product into a zero accumulator, at row `r` and column `g`: the sum over the 64 contracted
    coordinates of the left row times the right column. -/
theorem mm_64_2 (lhs : FVec Ideal S2048x64 .bf16) (rhs : FVec Ideal S64x2 .bf16) (r : Fin 2048) (g : Fin 2) :
    matmul dot_S2048x64_S64x2_S2048x2_1_0_0_1_n_n none lhs rhs (constant S2048x2 .f32 0x00000000#32) (ix2 r g) = ∑ k : Fin 64, lhs (ix2 r k) * rhs (ix2 k g) := by
  show FloatOps.matmul _ _ _ _ _ _ = _
  rw [Ideal.matmul_constant_zero_apply, ← Equiv.sum_comp (ValueIdx.contrEquiv1 dot_S2048x64_S64x2_S2048x2_1_0_0_1_n_n 64 rfl rfl).symm]
  refine Finset.sum_congr rfl fun k _ => ?_
  have hk := ValueIdx.contrEquiv1_symm_val dot_S2048x64_S64x2_S2048x2_1_0_0_1_n_n 64 rfl rfl k
  have el : dot_S2048x64_S64x2_S2048x2_1_0_0_1_n_n.lhsIdx (ix2 r g) ((ValueIdx.contrEquiv1 dot_S2048x64_S64x2_S2048x2_1_0_0_1_n_n 64 rfl rfl).symm k) = ix2 r k := funext fun a => Fin.ext (by
    match a with
    | ⟨0, _⟩ => exact mm_64_2_row _ _
    | ⟨1, _⟩ => exact (dot_S2048x64_S64x2_S2048x2_1_0_0_1_n_n.lhsIdx_val_of_single rfl _ _).trans hk)
  have er : dot_S2048x64_S64x2_S2048x2_1_0_0_1_n_n.rhsIdx (ix2 r g) ((ValueIdx.contrEquiv1 dot_S2048x64_S64x2_S2048x2_1_0_0_1_n_n 64 rfl rfl).symm k) = ix2 k g := funext fun a => Fin.ext (by
    match a with
    | ⟨0, _⟩ => exact (dot_S2048x64_S64x2_S2048x2_1_0_0_1_n_n.rhsIdx_val_of_single rfl _ _).trans hk
    | ⟨1, _⟩ => exact mm_64_2_col _ _)
  rw [el, er]

/-- The left operand's row coordinate is the result's row. -/
theorem mm_64_1_row (i : S2048x1.Idx) (q : dot_S2048x64_S64x1_S2048x1_1_0_0_1_n_n.contr.Idx) : (dot_S2048x64_S64x1_S2048x1_1_0_0_1_n_n.lhsIdx i q 0).val = (i 0).val := by
  unfold DotDims.lhsIdx
  rw [dif_neg (show ¬(0 : Fin S2048x64.rank) ∈ dot_S2048x64_S64x1_S2048x1_1_0_0_1_n_n.lhsBatch by decide), dif_pos (show (0 : Fin S2048x64.rank) ∈ dot_S2048x64_S64x1_S2048x1_1_0_0_1_n_n.lhsNonContracting by decide)]
  rfl
/-- The right operand's column coordinate is the result's column. -/
theorem mm_64_1_col (i : S2048x1.Idx) (q : dot_S2048x64_S64x1_S2048x1_1_0_0_1_n_n.contr.Idx) : (dot_S2048x64_S64x1_S2048x1_1_0_0_1_n_n.rhsIdx i q 1).val = (i 1).val := by
  unfold DotDims.rhsIdx
  rw [dif_neg (show ¬(1 : Fin S64x1.rank) ∈ dot_S2048x64_S64x1_S2048x1_1_0_0_1_n_n.rhsBatch by decide), dif_pos (show (1 : Fin S64x1.rank) ∈ dot_S2048x64_S64x1_S2048x1_1_0_0_1_n_n.rhsNonContracting by decide)]
  rfl

/-- The 2048×64 by 64×1 product into a zero accumulator, at row `r` and column `g`: the sum over the 64 contracted
    coordinates of the left row times the right column. -/
theorem mm_64_1 (lhs : FVec Ideal S2048x64 .bf16) (rhs : FVec Ideal S64x1 .bf16) (r : Fin 2048) (g : Fin 1) :
    matmul dot_S2048x64_S64x1_S2048x1_1_0_0_1_n_n none lhs rhs (constant S2048x1 .f32 0x00000000#32) (ix2 r g) = ∑ k : Fin 64, lhs (ix2 r k) * rhs (ix2 k g) := by
  show FloatOps.matmul _ _ _ _ _ _ = _
  rw [Ideal.matmul_constant_zero_apply, ← Equiv.sum_comp (ValueIdx.contrEquiv1 dot_S2048x64_S64x1_S2048x1_1_0_0_1_n_n 64 rfl rfl).symm]
  refine Finset.sum_congr rfl fun k _ => ?_
  have hk := ValueIdx.contrEquiv1_symm_val dot_S2048x64_S64x1_S2048x1_1_0_0_1_n_n 64 rfl rfl k
  have el : dot_S2048x64_S64x1_S2048x1_1_0_0_1_n_n.lhsIdx (ix2 r g) ((ValueIdx.contrEquiv1 dot_S2048x64_S64x1_S2048x1_1_0_0_1_n_n 64 rfl rfl).symm k) = ix2 r k := funext fun a => Fin.ext (by
    match a with
    | ⟨0, _⟩ => exact mm_64_1_row _ _
    | ⟨1, _⟩ => exact (dot_S2048x64_S64x1_S2048x1_1_0_0_1_n_n.lhsIdx_val_of_single rfl _ _).trans hk)
  have er : dot_S2048x64_S64x1_S2048x1_1_0_0_1_n_n.rhsIdx (ix2 r g) ((ValueIdx.contrEquiv1 dot_S2048x64_S64x1_S2048x1_1_0_0_1_n_n 64 rfl rfl).symm k) = ix2 k g := funext fun a => Fin.ext (by
    match a with
    | ⟨0, _⟩ => exact (dot_S2048x64_S64x1_S2048x1_1_0_0_1_n_n.rhsIdx_val_of_single rfl _ _).trans hk
    | ⟨1, _⟩ => exact mm_64_1_col _ _)
  rw [el, er]

/-! ## The first block -/

/-- The mixing matrix as loaded is the matrix. -/
theorem pay2_eq (v7 : Vec Ideal S128x128 .bf16) : k0_pay2 (F := Ideal) v7 = v7 := by
  unfold k0_pay2
  exact shapeCast_self _ _

/-- One plane mixed by the matrix: row `r`, column `g`. -/
theorem pay3_at (v1 : Vec Ideal S2048x1x128 .f32) (v7 : Vec Ideal S128x128 .bf16) (r : Fin 2048) (g : Fin 128) :
    k0_pay3 (F := Ideal) v1 v7 (ix2 r g) = ∑ f : Fin 128, v1 (ix3 r (0 : Fin 1) f) * v7 (ix2 f g) := by
  unfold k0_pay3
  rw [mm_128_128, pay2_eq]
  refine Finset.sum_congr rfl fun f _ => ?_
  rw [truncf_apply, plane_cast]

/-- The second half of a mixed plane. -/
theorem pay6_at (v1 : Vec Ideal S2048x1x128 .f32) (v7 : Vec Ideal S128x128 .bf16) (r : Fin 2048) (j : Fin 64) :
    k0_pay6 (F := Ideal) v1 v7 (ix2 r j) = k0_pay3 (F := Ideal) v1 v7 (ix2 r (hi j)) := by
  unfold k0_pay6
  exact cols_hi _ r j

/-- The logistic function of a vector, read at an index. -/
theorem logistic_at {s : Shape} (x : FVec Ideal s .f32) (i : s.Idx) : logistic x i = Ideal.logistic (x i) := rfl

/-! ## One-row weights broadcast over the rows -/

/-- A 64-vector laid as one row and broadcast over 2048 rows reads, at `(r, j)`, entry `j`. -/
theorem bias64 (b : Vec Ideal S64 .f32) (r : Fin 2048) (j : Fin 64) :
    broadcastTo S2048x64 (shapeCast S1x64 b shapeCasts_S64_S1x64) broadcasts_S1x64_S2048x64 (ix2 r j) = b (ix1 j) := by
  rw [broadcastTo_1b_ab_apply]
  exact shapeCast_apply b _ _ _ (by rw [Shape.rowMajor_val_one, Shape.rowMajor_val_two]; show j.val = 0 * 64 + j.val; omega)

/-- A 128-vector laid as one row and broadcast over 2048 rows. -/
theorem bias128 (b : Vec Ideal S128 .f32) (r : Fin 2048) (g : Fin 128) :
    broadcastTo S2048x128 (shapeCast S1x128 b shapeCasts_S128_S1x128) broadcasts_S1x128_S2048x128 (ix2 r g) = b (ix1 g) := by
  rw [broadcastTo_1b_ab_apply]
  exact shapeCast_apply b _ _ _ (by rw [Shape.rowMajor_val_one, Shape.rowMajor_val_two]; show g.val = 0 * 128 + g.val; omega)

/-- A 2-vector laid as one row and broadcast over 2048 rows. -/
theorem bias2 (b : Vec Ideal S2 .f32) (r : Fin 2048) (e : Fin 2) :
    broadcastTo S2048x2 (shapeCast S1x2 b shapeCasts_S2_S1x2) broadcasts_S1x2_S2048x2 (ix2 r e) = b (ix1 e) := by
  rw [broadcastTo_1b_ab_apply]
  exact shapeCast_apply b _ _ _ (by rw [Shape.rowMajor_val_one, Shape.rowMajor_val_two]; show e.val = 0 * 2 + e.val; omega)

/-- A 1-vector laid as one row and broadcast over 2048 rows of one column. -/
theorem bias1 (b : Vec Ideal S1 .f32) (r : Fin 2048) :
    broadcastTo S2048x1 (shapeCast S1x1 b shapeCasts_S1_S1x1) broadcasts_S1x1_S2048x1 (ix2 r (0 : Fin 1)) = b (ix1 (0 : Fin 1)) := by
  rw [broadcastTo_1b_ab_apply]
  exact shapeCast_apply b _ _ _ (by rw [Shape.rowMajor_val_one, Shape.rowMajor_val_two]; rfl)

/-- A 1×1 weight broadcast over 2048 rows of one column. -/
theorem scalar11 (w : Vec Ideal S1x1 .f32) (r : Fin 2048) :
    broadcastTo S2048x1 (shapeCast S1x1 w shapeCasts_S1x1_S1x1) broadcasts_S1x1_S2048x1 (ix2 r (0 : Fin 1)) = w (ix2 (0 : Fin 1) (0 : Fin 1)) := by
  rw [broadcastTo_1b_ab_apply, shapeCast_self]

/-- One column broadcast over two columns reads the column. -/
theorem col_bcast (x : FVec Ideal S2048x1 .f32) (r : Fin 2048) (e : Fin 2) :
    broadcastTo S2048x2 x broadcasts_S2048x1_S2048x2 (ix2 r e) = x (ix2 r (0 : Fin 1)) :=
  broadcastTo_apply x _ (ix2 r e) (ix2 r (0 : Fin 1)) fun ax => by
    match ax with
    | ⟨0, _⟩ => rfl
    | ⟨1, _⟩ => rfl

/-- Column `e` of two, as a one-column array. -/
theorem col_of2 (x : FVec Ideal S2048x2 .f32) (r : Fin 2048) :
    extractStridedSlice S2048x1 ![0, 0] x slices_S2048x2_o0_0_S2048x1 (ix2 r (0 : Fin 1)) = x (ix2 r (0 : Fin 2)) :=
  extractStridedSlice_apply _ _ _ _ _ (fun ax => by
    match ax with
    | ⟨0, _⟩ => exact (Nat.zero_add _).symm
    | ⟨1, _⟩ => rfl)

theorem col1_of2 (x : FVec Ideal S2048x2 .f32) (r : Fin 2048) :
    extractStridedSlice S2048x1 ![0, 1] x slices_S2048x2_o0_1_S2048x1 (ix2 r (0 : Fin 1)) = x (ix2 r (1 : Fin 2)) :=
  extractStridedSlice_apply _ _ _ _ _ (fun ax => by
    match ax with
    | ⟨0, _⟩ => exact (Nat.zero_add _).symm
    | ⟨1, _⟩ => rfl)

/-! ## The first block, continued -/

theorem pay4_eq : @k0_pay4 = @k0_pay3 := rfl
theorem pay5_eq : @k0_pay5 = @k0_pay3 := rfl
theorem pay7_eq : @k0_pay7 = @k0_pay6 := rfl
theorem pay8_eq : @k0_pay8 = @k0_pay6 := rfl

/-- The first dense layer before its bias: the scalars' sum plus the sum over the norm of the three mixed planes. -/
theorem pay9_at (v0 : Vec Ideal S2048x128 .f32) (v1 v3 v5 : Vec Ideal S2048x1x128 .f32) (v7 : Vec Ideal S128x128 .bf16)
    (v28 : Vec Ideal S128x64 .bf16) (v32 : Vec Ideal S64x64 .bf16) (r : Fin 2048) (j : Fin 64) :
    k0_pay9 (F := Ideal) v0 v1 v3 v5 v7 v28 v32 (ix2 r j)
      = (∑ k : Fin 128, v0 (ix2 r k) * v28 (ix2 k j))
        + ∑ k : Fin 64, norm3 (k0_pay3 (F := Ideal) v1 v7 (ix2 r (lo k))) (k0_pay3 (F := Ideal) v3 v7 (ix2 r (lo k)))
            (k0_pay3 (F := Ideal) v5 v7 (ix2 r (lo k))) * v32 (ix2 k j) := by
  unfold k0_pay9
  rw [addf_apply, mm_128_64, mm_64_64, shapeCast_self, shapeCast_self, pay4_eq, pay5_eq]
  refine congrArg₂ (· + ·) (Finset.sum_congr rfl fun k _ => by rw [truncf_apply]) (Finset.sum_congr rfl fun k _ => ?_)
  rw [truncf_apply]
  show Ideal.sqrt (_ * _ + _ * _ + _ * _) * _ = _
  rw [cols_lo, cols_lo, cols_lo]
  rfl

/-- The second dense layer of the first block, from the pre-bias values of the first. -/
theorem pay10_at (v35 : FVec Ideal S2048x64 .f32) (v36 : Vec Ideal S64 .f32) (v43 : Vec Ideal S64x128 .bf16) (v46 : Vec Ideal S128 .f32)
    (r : Fin 2048) (g : Fin 128) :
    k0_pay10 (F := Ideal) v35 v36 v43 v46 (ix2 r g)
      = (∑ k : Fin 64, silu (v35 (ix2 r k) + v36 (ix1 k)) * v43 (ix2 k g)) + v46 (ix1 g) := by
  unfold k0_pay10
  rw [addf_apply, mm_64_128, shapeCast_self, bias128]
  refine congrArg (· + _) (Finset.sum_congr rfl fun k _ => ?_)
  rw [truncf_apply, mulf_apply, logistic_at, addf_apply, bias64]
  rfl

/-- The gate of the first block. -/
theorem pay11_at (v35 : FVec Ideal S2048x64 .f32) (v36 : Vec Ideal S64 .f32) (v43 : Vec Ideal S64x128 .bf16) (v46 : Vec Ideal S128 .f32)
    (r : Fin 2048) (j : Fin 64) :
    k0_pay11 (F := Ideal) v35 v36 v43 v46 (ix2 r j) = k0_pay10 (F := Ideal) v35 v36 v43 v46 (ix2 r (hi j)) := by
  unfold k0_pay11
  exact cols_hi _ r j

/-! ## The second block -/

theorem pay12_eq (v57 : Vec Ideal S64x2 .bf16) : k0_pay12 (F := Ideal) v57 = v57 := by
  unfold k0_pay12
  exact shapeCast_self _ _

theorem pay14_eq : @k0_pay14 = @k0_pay13 := rfl
theorem pay15_eq : @k0_pay15 = @k0_pay13 := rfl
theorem pay17_eq : @k0_pay17 = @k0_pay16 := rfl
theorem pay18_eq : @k0_pay18 = @k0_pay16 := rfl

/-- One gated plane mixed by the second block's matrix. -/
theorem pay13_at (v16 v35 : FVec Ideal S2048x64 .f32) (v36 : Vec Ideal S64 .f32) (v43 : Vec Ideal S64x128 .bf16) (v46 : Vec Ideal S128 .f32)
    (v57 : Vec Ideal S64x2 .bf16) (r : Fin 2048) (e : Fin 2) :
    k0_pay13 (F := Ideal) v16 v35 v36 v43 v46 v57 (ix2 r e)
      = ∑ j : Fin 64, (k0_pay11 (F := Ideal) v35 v36 v43 v46 (ix2 r j) * v16 (ix2 r j)) * v57 (ix2 j e) := by
  unfold k0_pay13
  rw [mm_64_2, pay12_eq]
  refine Finset.sum_congr rfl fun j _ => ?_
  rw [truncf_apply, mulf_apply]

/-- The second column of a mixed gated plane. -/
theorem pay16_at (v16 v35 : FVec Ideal S2048x64 .f32) (v36 : Vec Ideal S64 .f32) (v43 : Vec Ideal S64x128 .bf16) (v46 : Vec Ideal S128 .f32)
    (v57 : Vec Ideal S64x2 .bf16) (r : Fin 2048) :
    k0_pay16 (F := Ideal) v16 v35 v36 v43 v46 v57 (ix2 r (0 : Fin 1)) = k0_pay13 (F := Ideal) v16 v35 v36 v43 v46 v57 (ix2 r (1 : Fin 2)) := by
  unfold k0_pay16
  exact col1_of2 _ r

/-- The norm over the three planes of the first column. -/
theorem pay19_at (v16 v18 v20 v35 : FVec Ideal S2048x64 .f32) (v36 : Vec Ideal S64 .f32) (v43 : Vec Ideal S64x128 .bf16) (v46 : Vec Ideal S128 .f32)
    (v57 : Vec Ideal S64x2 .bf16) (r : Fin 2048) :
    k0_pay19 (F := Ideal) v16 v18 v20 v35 v36 v43 v46 v57 (ix2 r (0 : Fin 1))
      = norm3 (k0_pay13 (F := Ideal) v16 v35 v36 v43 v46 v57 (ix2 r (0 : Fin 2))) (k0_pay13 (F := Ideal) v18 v35 v36 v43 v46 v57 (ix2 r (0 : Fin 2)))
          (k0_pay13 (F := Ideal) v20 v35 v36 v43 v46 v57 (ix2 r (0 : Fin 2))) := by
  unfold k0_pay19
  rw [pay14_eq, pay15_eq]
  show Ideal.sqrt (_ * _ + _ * _ + _ * _) = _
  rw [col_of2, col_of2, col_of2]
  rfl

/-- The scalar features' sum of the second block's first dense layer. -/
theorem pay20_at (v35 : FVec Ideal S2048x64 .f32) (v36 : Vec Ideal S64 .f32) (v43 : Vec Ideal S64x128 .bf16) (v46 : Vec Ideal S128 .f32)
    (v78 : Vec Ideal S64x1 .bf16) (r : Fin 2048) :
    k0_pay20 (F := Ideal) v35 v36 v43 v46 v78 (ix2 r (0 : Fin 1))
      = ∑ k : Fin 64, silu (k0_pay10 (F := Ideal) v35 v36 v43 v46 (ix2 r (lo k))) * v78 (ix2 k (0 : Fin 1)) := by
  unfold k0_pay20
  rw [mm_64_1, shapeCast_self]
  refine Finset.sum_congr rfl fun k _ => ?_
  rw [truncf_apply, mulf_apply, logistic_at, cols_lo]
  rfl

/-! ## The result -/

/-- Three one-column arrays joined along the columns: column `a` is the `a`-th array. -/
theorem concat3_at (x0 x1 x2 : FVec Ideal S2048x1 .f32) (r : Fin 2048) (a : Fin 3) :
    concatenate S2048x3 1 [⟨S2048x1, x0⟩, ⟨S2048x1, x1⟩, ⟨S2048x1, x2⟩] concatenates_S2048x1_S2048x1_S2048x1_S2048x3_d1 (ix2 r a)
      = (![x0, x1, x2] a) (ix2 r (0 : Fin 1)) := by
  have hi : ∀ (a : Fin 3) (b : Fin S2048x1.rank), b.cast (rfl : S2048x1.rank = S2048x3.rank) ≠ (1 : Fin S2048x3.rank) →
      ((ix2 r (0 : Fin 1) : S2048x1.Idx) b).val = ((ix2 r a : S2048x3.Idx) (b.cast rfl)).val := by
    intro a b hb
    match b with
    | ⟨0, _⟩ => rfl
    | ⟨1, _⟩ => exact absurd rfl hb
  match a with
  | ⟨0, _⟩ =>
    exact concatenate_apply_piece 1 [⟨S2048x1, x0⟩, ⟨S2048x1, x1⟩, ⟨S2048x1, x2⟩] concatenates_S2048x1_S2048x1_S2048x1_S2048x3_d1
      (ix2 r (0 : Fin 3)) 0 (by show (0 : ℕ) < 3; omega) S2048x1 x0 rfl rfl 0 rfl (ix2 r (0 : Fin 1)) (hi 0) rfl
  | ⟨1, _⟩ =>
    exact concatenate_apply_piece 1 [⟨S2048x1, x0⟩, ⟨S2048x1, x1⟩, ⟨S2048x1, x2⟩] concatenates_S2048x1_S2048x1_S2048x1_S2048x3_d1
      (ix2 r (1 : Fin 3)) 1 (by show (1 : ℕ) < 3; omega) S2048x1 x1 rfl rfl 1 rfl (ix2 r (0 : Fin 1)) (hi 1) rfl
  | ⟨2, _⟩ =>
    exact concatenate_apply_piece 1 [⟨S2048x1, x0⟩, ⟨S2048x1, x1⟩, ⟨S2048x1, x2⟩] concatenates_S2048x1_S2048x1_S2048x1_S2048x3_d1
      (ix2 r (2 : Fin 3)) 2 (by show (2 : ℕ) < 3; omega) S2048x1 x2 rfl rfl 2 rfl (ix2 r (0 : Fin 1)) (hi 2) rfl

/-- The stored value at row `r`, plane `a`: the literal 1000 times the second block's gate times the plane's second
    mixed column; the gate is the second column of the second dense layer of the hidden feature. -/
theorem pay1_at (v66 v68 v70 v76 v80 : FVec Ideal S2048x1 .f32) (v81 : Vec Ideal S1x1 .f32) (v86 : Vec Ideal S1 .f32)
    (v92 : Vec Ideal S1x2 .f32) (v96 : Vec Ideal S2 .f32) (r : Fin 2048) (a : Fin 3) :
    k0_pay1 (F := Ideal) v66 v68 v70 v76 v80 v81 v86 v92 v96 (ix2 r a)
      = thousand * ((silu ((v80 (ix2 r (0 : Fin 1)) + v76 (ix2 r (0 : Fin 1)) * v81 (ix2 (0 : Fin 1) (0 : Fin 1))) + v86 (ix1 (0 : Fin 1)))
            * v92 (ix2 (0 : Fin 1) (1 : Fin 2)) + v96 (ix1 (1 : Fin 2)))
          * (![v66, v68, v70] a) (ix2 r (0 : Fin 1))) := by
  unfold k0_pay1
  rw [concat3_at]
  match a with
  | ⟨0, _⟩ =>
    show Ideal.ofBits .f32 0x447A0000#32 * (extractStridedSlice S2048x1 ![0, 1] (_ : FVec Ideal S2048x2 .f32) slices_S2048x2_o0_1_S2048x1 (ix2 r (0 : Fin 1)) * v66 (ix2 r (0 : Fin 1))) = _
    rw [col1_of2, addf_apply, mulf_apply, col_bcast, broadcastTo_1b_ab_apply, bias2, mulf_apply, logistic_at, addf_apply, addf_apply,
      mulf_apply, scalar11, bias1]
    rfl
  | ⟨1, _⟩ =>
    show Ideal.ofBits .f32 0x447A0000#32 * (extractStridedSlice S2048x1 ![0, 1] (_ : FVec Ideal S2048x2 .f32) slices_S2048x2_o0_1_S2048x1 (ix2 r (0 : Fin 1)) * v68 (ix2 r (0 : Fin 1))) = _
    rw [col1_of2, addf_apply, mulf_apply, col_bcast, broadcastTo_1b_ab_apply, bias2, mulf_apply, logistic_at, addf_apply, addf_apply,
      mulf_apply, scalar11, bias1]
    rfl
  | ⟨2, _⟩ =>
    show Ideal.ofBits .f32 0x447A0000#32 * (extractStridedSlice S2048x1 ![0, 1] (_ : FVec Ideal S2048x2 .f32) slices_S2048x2_o0_1_S2048x1 (ix2 r (0 : Fin 1)) * v70 (ix2 r (0 : Fin 1))) = _
    rw [col1_of2, addf_apply, mulf_apply, col_bcast, broadcastTo_1b_ab_apply, bias2, mulf_apply, logistic_at, addf_apply, addf_apply,
      mulf_apply, scalar11, bias1]
    rfl

/-! ## The whole body at a row -/

/-- The weights as the body loads them: the first dense layers already in their two row groups. -/
def blockWeights (v7 : Vec Ideal S128x128 .bf16) (v28 : Vec Ideal S128x64 .bf16) (v32 : Vec Ideal S64x64 .bf16) (v36 : Vec Ideal S64 .f32)
    (v43 : Vec Ideal S64x128 .bf16) (v46 : Vec Ideal S128 .f32) (v57 : Vec Ideal S64x2 .bf16) (v78 : Vec Ideal S64x1 .bf16)
    (v81 : Vec Ideal S1x1 .f32) (v86 : Vec Ideal S1 .f32) (v92 : Vec Ideal S1x2 .f32) (v96 : Vec Ideal S2 .f32) : Weights where
  mix1 f g := v7 (ix2 f g)
  denseS1 k j := v28 (ix2 k j)
  denseV1 k j := v32 (ix2 k j)
  bias1 j := v36 (ix1 j)
  out1 k g := v43 (ix2 k g)
  obias1 g := v46 (ix1 g)
  mix2 j e := v57 (ix2 j e)
  denseS2 k := v78 (ix2 k (0 : Fin 1))
  denseV2 := v81 (ix2 (0 : Fin 1) (0 : Fin 1))
  bias2 := v86 (ix1 (0 : Fin 1))
  out2 e := v92 (ix2 (0 : Fin 1) e)
  obias2 e := v96 (ix1 e)

/-- Row `r`, plane `a` of what the body stores is the row function of row `r` of the loaded scalars, row `r` of the three
    loaded planes, and the loaded weights. -/
theorem body_row (v0 : Vec Ideal S2048x128 .f32) (v1 v3 v5 : Vec Ideal S2048x1x128 .f32) (v7 : Vec Ideal S128x128 .bf16)
    (v28 : Vec Ideal S128x64 .bf16) (v32 : Vec Ideal S64x64 .bf16) (v36 : Vec Ideal S64 .f32) (v43 : Vec Ideal S64x128 .bf16)
    (v46 : Vec Ideal S128 .f32) (v57 : Vec Ideal S64x2 .bf16) (v78 : Vec Ideal S64x1 .bf16) (v81 : Vec Ideal S1x1 .f32)
    (v86 : Vec Ideal S1 .f32) (v92 : Vec Ideal S1x2 .f32) (v96 : Vec Ideal S2 .f32) (r : Fin 2048) (a : Fin 3) :
    k0_pay1 (F := Ideal) (k0_pay16 (k0_pay6 v1 v7) (k0_pay9 (F := Ideal) v0 v1 v3 v5 v7 v28 v32) v36 v43 v46 v57) (k0_pay17 (k0_pay7 v3 v7) (k0_pay9 (F := Ideal) v0 v1 v3 v5 v7 v28 v32) v36 v43 v46 v57)
        (k0_pay18 (k0_pay8 v5 v7) (k0_pay9 (F := Ideal) v0 v1 v3 v5 v7 v28 v32) v36 v43 v46 v57)
        (k0_pay19 (k0_pay6 v1 v7) (k0_pay7 v3 v7) (k0_pay8 v5 v7) (k0_pay9 (F := Ideal) v0 v1 v3 v5 v7 v28 v32) v36 v43 v46 v57)
        (k0_pay20 (k0_pay9 (F := Ideal) v0 v1 v3 v5 v7 v28 v32) v36 v43 v46 v78) v81 v86 v92 v96 (ix2 r a)
      = rowOut (blockWeights v7 v28 v32 v36 v43 v46 v57 v78 v81 v86 v92 v96) (fun k => v0 (ix2 r k))
          (fun a f => (![v1, v3, v5] a) (ix3 r (0 : Fin 1) f)) a := by
  rw [pay7_eq, pay8_eq, pay17_eq, pay18_eq]
  generalize hW : blockWeights v7 v28 v32 v36 v43 v46 v57 v78 v81 v86 v92 v96 = W
  generalize hs : (fun k => v0 (ix2 r k)) = s
  generalize hv : (fun (a : Fin 3) (f : Fin 128) => (![v1, v3, v5] a) (ix3 r (0 : Fin 1) f)) = v
  have m0 : ∀ g, k0_pay3 (F := Ideal) v1 v7 (ix2 r g) = mixed1 W v 0 g := fun g => by
    subst hW hv; exact pay3_at v1 v7 r g
  have m1 : ∀ g, k0_pay3 (F := Ideal) v3 v7 (ix2 r g) = mixed1 W v 1 g := fun g => by
    subst hW hv; exact pay3_at v3 v7 r g
  have m2 : ∀ g, k0_pay3 (F := Ideal) v5 v7 (ix2 r g) = mixed1 W v 2 g := fun g => by
    subst hW hv; exact pay3_at v5 v7 r g
  have h9 : ∀ j, (k0_pay9 (F := Ideal) v0 v1 v3 v5 v7 v28 v32) (ix2 r j) = pre1 W s v j := fun j => by
    rw [pay9_at]
    simp only [m0, m1, m2]
    subst hW hs
    rfl
  have h10 : ∀ g, k0_pay10 (F := Ideal) (k0_pay9 (F := Ideal) v0 v1 v3 v5 v7 v28 v32) v36 v43 v46 (ix2 r g) = dense1 W s v g := fun g => by
    rw [pay10_at]
    simp only [h9]
    subst hW
    rfl
  have x0 : ∀ e, k0_pay13 (F := Ideal) (k0_pay6 v1 v7) (k0_pay9 (F := Ideal) v0 v1 v3 v5 v7 v28 v32) v36 v43 v46 v57 (ix2 r e) = mixed2 W s v 0 e := fun e => by
    rw [pay13_at]
    simp only [pay11_at, pay6_at, h10, m0]
    subst hW
    rfl
  have x1 : ∀ e, k0_pay13 (F := Ideal) (k0_pay6 v3 v7) (k0_pay9 (F := Ideal) v0 v1 v3 v5 v7 v28 v32) v36 v43 v46 v57 (ix2 r e) = mixed2 W s v 1 e := fun e => by
    rw [pay13_at]
    simp only [pay11_at, pay6_at, h10, m1]
    subst hW
    rfl
  have x2 : ∀ e, k0_pay13 (F := Ideal) (k0_pay6 v5 v7) (k0_pay9 (F := Ideal) v0 v1 v3 v5 v7 v28 v32) v36 v43 v46 v57 (ix2 r e) = mixed2 W s v 2 e := fun e => by
    rw [pay13_at]
    simp only [pay11_at, pay6_at, h10, m2]
    subst hW
    rfl
  have h19 : k0_pay19 (F := Ideal) (k0_pay6 v1 v7) (k0_pay6 v3 v7) (k0_pay6 v5 v7) (k0_pay9 (F := Ideal) v0 v1 v3 v5 v7 v28 v32) v36 v43 v46 v57 (ix2 r (0 : Fin 1)) = vnorm2 W s v := by
    rw [pay19_at, x0, x1, x2]
    rfl
  have h20 : k0_pay20 (F := Ideal) (k0_pay9 (F := Ideal) v0 v1 v3 v5 v7 v28 v32) v36 v43 v46 v78 (ix2 r (0 : Fin 1)) = ∑ k : Fin 64, scalar1 W s v k * W.denseS2 k := by
    rw [pay20_at]
    simp only [h10]
    subst hW
    rfl
  rw [pay1_at, h19, h20]
  match a with
  | ⟨0, _⟩ =>
    show thousand * (_ * k0_pay16 (F := Ideal) (k0_pay6 v1 v7) (k0_pay9 (F := Ideal) v0 v1 v3 v5 v7 v28 v32) v36 v43 v46 v57 (ix2 r (0 : Fin 1))) = _
    rw [pay16_at, x0]
    subst hW
    rfl
  | ⟨1, _⟩ =>
    show thousand * (_ * k0_pay16 (F := Ideal) (k0_pay6 v3 v7) (k0_pay9 (F := Ideal) v0 v1 v3 v5 v7 v28 v32) v36 v43 v46 v57 (ix2 r (0 : Fin 1))) = _
    rw [pay16_at, x1]
    subst hW
    rfl
  | ⟨2, _⟩ =>
    show thousand * (_ * k0_pay16 (F := Ideal) (k0_pay6 v5 v7) (k0_pay9 (F := Ideal) v0 v1 v3 v5 v7 v28 v32) v36 v43 v46 v57 (ix2 r (0 : Fin 1))) = _
    rw [pay16_at, x2]
    subst hW
    rfl

end Cert.GatedRow.Kernel

end
-- ==== Proof.KernelBlock.lean ====
/-
  From the body's stored block to the whole result array.

  At grid point `t` the body stores a `[2048, 3]` block whose row `r` is the row function of row `r` of the scalar block,
  row `r` of the three planes of the vector block, and the weights.  Block `t` of the two tiled inputs is rows
  `2048 t … 2048 t + 2047` of the argument arrays, and the weight windows hold the whole weight arrays, so the stored block
  is block `t` of one whole-array function of the arguments; the 128 blocks tile the `[262144, 3]` result.
-/
import proofs.«114226_j16501264351434_2_alg».proof.Proof.Gen.KernelIdeal.Frame
import proofs.«114226_j16501264351434_2_alg».proof.Proof.KernelRow
import Idealize.ShloMosaic.Lib.ValueIdx
import Idealize.ShloMosaic.Lib.Pipeline.Value

set_option maxRecDepth 16384

noncomputable section

namespace Cert.GatedRow.Block

open Idealize.ShloMosaic Idealize.ShloMosaic.TcCoe Idealize.ShloMosaic.ValueIdx Idealize.SL.Sem
open Cert.KernelIdeal Cert.KernelIdeal.Gen Cert.GatedRow Cert.GatedRow.Kernel

theorem hz1 : (![0] : Fin 1 → Nat) = fun _ => 0 := funext fun a => by fin_cases a; rfl
theorem hz2 : (![0, 0] : Fin 2 → Nat) = fun _ => 0 := funext fun a => by fin_cases a <;> rfl

/-- The load of plane 0: the `[2048, 1, 128]` rectangle at offset `(0, 0, 0)` of the block reads the block at plane 0. -/
theorem plane_ld0 (x1 : Vec Ideal S2048x3x128 .f32) (r : Fin 2048) (f : Fin 128) :
    (View.ld x1 r0_1 : Vec Ideal S2048x1x128 .f32) (ix3 r (0 : Fin 1) f) = x1 (ix3 r (0 : Fin 3) f) := by
  show x1 (r0_1.idx (ix3 r (0 : Fin 1) f)) = x1 (ix3 r (0 : Fin 3) f)
  refine congrArg x1 (funext fun a => Fin.ext ?_)
  match a with
  | ⟨0, _⟩ => show 0 + 1 * r.val = r.val; omega
  | ⟨1, _⟩ => show 0 + 1 * 0 = 0; rfl
  | ⟨2, _⟩ => show 0 + 1 * f.val = f.val; omega

/-- The load of plane 1: the `[2048, 1, 128]` rectangle at offset `(0, 1, 0)` of the block reads the block at plane 1. -/
theorem plane_ld1 (x1 : Vec Ideal S2048x3x128 .f32) (r : Fin 2048) (f : Fin 128) :
    (View.ld x1 r0_2 : Vec Ideal S2048x1x128 .f32) (ix3 r (0 : Fin 1) f) = x1 (ix3 r (1 : Fin 3) f) := by
  show x1 (r0_2.idx (ix3 r (0 : Fin 1) f)) = x1 (ix3 r (1 : Fin 3) f)
  refine congrArg x1 (funext fun a => Fin.ext ?_)
  match a with
  | ⟨0, _⟩ => show 0 + 1 * r.val = r.val; omega
  | ⟨1, _⟩ => show 1 + 1 * 0 = 1; rfl
  | ⟨2, _⟩ => show 0 + 1 * f.val = f.val; omega

/-- The load of plane 2: the `[2048, 1, 128]` rectangle at offset `(0, 2, 0)` of the block reads the block at plane 2. -/
theorem plane_ld2 (x1 : Vec Ideal S2048x3x128 .f32) (r : Fin 2048) (f : Fin 128) :
    (View.ld x1 r0_3 : Vec Ideal S2048x1x128 .f32) (ix3 r (0 : Fin 1) f) = x1 (ix3 r (2 : Fin 3) f) := by
  show x1 (r0_3.idx (ix3 r (0 : Fin 1) f)) = x1 (ix3 r (2 : Fin 3) f)
  refine congrArg x1 (funext fun a => Fin.ext ?_)
  match a with
  | ⟨0, _⟩ => show 0 + 1 * r.val = r.val; omega
  | ⟨1, _⟩ => show 2 + 1 * 0 = 2; rfl
  | ⟨2, _⟩ => show 0 + 1 * f.val = f.val; omega

/-- Row `r`, plane `a` of the block the body leaves in the output buffer. -/
theorem out_row (x0 : Vec Ideal S2048x128 .f32) (x1 : Vec Ideal S2048x3x128 .f32) (x2 : Vec Ideal S128x128 .bf16) (x3 : Vec Ideal S128x64 .bf16) (x4 : Vec Ideal S64x64 .bf16) (x5 : Vec Ideal S64 .f32) (x6 : Vec Ideal S64x128 .bf16) (x7 : Vec Ideal S128 .f32) (x8 : Vec Ideal S64x2 .bf16) (x9 : Vec Ideal S64x1 .bf16) (x10 : Vec Ideal S1x1 .f32) (x11 : Vec Ideal S1 .f32) (x12 : Vec Ideal S1x2 .f32) (x13 : Vec Ideal S2 .f32) (r : Fin 2048) (a : Fin 3) :
    out0_14 (F := Ideal) x0 x1 x2 x3 x4 x5 x6 x7 x8 x9 x10 x11 x12 x13 (ix2 r a)
      = rowOut (blockWeights x2 x3 x4 x5 x6 x7 x8 x9 x10 x11 x12 x13) (fun k => x0 (ix2 r k)) (fun a f => x1 (ix3 r a f)) a := by
  unfold out0_14
  rw [View.canon_unit_zero hz2]
  simp only [View.ld_unit_zero (S := S2048x128) hz2, View.ld_unit_zero (S := S128x128) hz2, View.ld_unit_zero (S := S128x64) hz2, View.ld_unit_zero (S := S64x64) hz2, View.ld_unit_zero (S := S64x128) hz2, View.ld_unit_zero (S := S64x2) hz2, View.ld_unit_zero (S := S64x1) hz2, View.ld_unit_zero (S := S1x1) hz2, View.ld_unit_zero (S := S1x2) hz2,
    View.ld_unit_zero (S := S64) hz1, View.ld_unit_zero (S := S128) hz1, View.ld_unit_zero (S := S1) hz1, View.ld_unit_zero (S := S2) hz1]
  rw [body_row]
  refine congrArg (fun v => rowOut _ _ v a) (funext fun b => funext fun f => ?_)
  match b with
  | ⟨0, _⟩ => exact plane_ld0 x1 r f
  | ⟨1, _⟩ => exact plane_ld1 x1 r f
  | ⟨2, _⟩ => exact plane_ld2 x1 r f

/-- The stored block at an index `y` is the whole-array function at an index `i` of the same plane whose row holds, in
    the argument arrays, what row `y 0` of the blocks holds. -/
theorem point_eq (x0 : Vec Ideal S2048x128 .f32) (x1 : Vec Ideal S2048x3x128 .f32) (x2 : Vec Ideal S128x128 .bf16) (x3 : Vec Ideal S128x64 .bf16) (x4 : Vec Ideal S64x64 .bf16) (x5 : Vec Ideal S64 .f32) (x6 : Vec Ideal S64x128 .bf16) (x7 : Vec Ideal S128 .f32) (x8 : Vec Ideal S64x2 .bf16) (x9 : Vec Ideal S64x1 .bf16) (x10 : Vec Ideal S1x1 .f32) (x11 : Vec Ideal S1 .f32) (x12 : Vec Ideal S1x2 .f32) (x13 : Vec Ideal S2 .f32)
    (l0 : S262144x128.Idx → EReal) (l1 : S262144x3x128.Idx → EReal) (W : Weights) (y : S2048x3.Idx) (i : S262144x3.Idx)
    (h0 : ∀ k : Fin 128, x0 (ix2 (y 0 : Fin 2048) k) = l0 (ix2 (i 0 : Fin 262144) k))
    (h1 : ∀ (a : Fin 3) (f : Fin 128), x1 (ix3 (y 0 : Fin 2048) a f) = l1 (ix3 (i 0 : Fin 262144) a f))
    (hW : blockWeights x2 x3 x4 x5 x6 x7 x8 x9 x10 x11 x12 x13 = W) (ha : (y 1 : Fin 3) = (i 1 : Fin 3)) :
    out0_14 (F := Ideal) x0 x1 x2 x3 x4 x5 x6 x7 x8 x9 x10 x11 x12 x13 y = wholeResult l0 l1 W i := by
  obtain ⟨p, q, rfl⟩ : ∃ (p : Fin 2048) (q : Fin 3), y = ix2 p q := ⟨y 0, y 1, eq_ix2 y⟩
  rw [out_row, hW]
  unfold wholeResult
  have hq : q = (i 1 : Fin 3) := ha
  rw [hq]
  exact congrArg₂ (fun s v => rowOut W s v (i 1 : Fin 3)) (funext h0) (funext fun a => funext fun f => h1 a f)

end Cert.GatedRow.Block

end
-- ==== Proof.KernelArrays.lean ====
/-
  The kernel's windows read at explicit coordinates.

  The kernel runs over a grid of 128 points.  Point `t` is handed rows `2048·t … 2048·t + 2047` of the two feature
  arrays and the whole of every weight array.  Some weight arrays reach the kernel through operations done before the
  grid starts: a slice of rows of a larger matrix, and a narrowing of the number format, which over the extended
  reals is the identity.  Here each window's block at point `t` is read at explicit coordinates as an element of an
  argument array, and the flat result after the grid is the row-major reshape of the array the grid wrote.
-/
import proofs.«114226_j16501264351434_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.GatedRow.Arrays

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## Where each window sits at point `t`: decided once over the 128 points -/

/-- The scalar features' window moves one block of rows per point. -/
theorem idx0 : ∀ t : Fin cfg0.N, win0_0.index t (0 : Fin 2) = t.val ∧ win0_0.index t (1 : Fin 2) = 0 :=
  (by decide +kernel : ∀ t : Fin grid0.N, _)
/-- So does the vector features' window. -/
theorem idx1 : ∀ t : Fin cfg0.N, win0_1.index t (0 : Fin 3) = t.val ∧ win0_1.index t (1 : Fin 3) = 0
    ∧ win0_1.index t (2 : Fin 3) = 0 :=
  (by decide +kernel : ∀ t : Fin grid0.N, _)
/-- Every weight window stays on its whole array. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 1) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 1) = 0 :=
  (by decide +kernel : ∀ t : Fin grid0.N, _)

/-! ## The grid-tiled inputs -/

/-- Block `t` of the scalar features is rows `2048·t … 2048·t + 2047`. -/
theorem blk0 (c : Dev nD) (t : Fin cfg0.N) (r : Fin 2048) (k : Fin 128) (n : Fin 262144)
    (hn : n.val = 2048 * t.val + r.val) :
    iblk m c 0 t (ix2 r k) = m ((c : Thread nD τ).loc main_arg0) (ix2 n k) := by
  obtain ⟨e0, e1⟩ := idx0 t
  have he : ((cfg0.win 0).blk t).view.emb (ix2 r k) = ix2 n k := by
    funext a; apply Fin.ext
    match a with
    | ⟨0, _⟩ => show win0_0.index t (0 : Fin 2) * 2048 + 1 * r.val = n.val; omega
    | ⟨1, _⟩ => show win0_0.index t (1 : Fin 2) * 128 + 1 * k.val = k.val; omega
  show V m c main_arg0 (((cfg0.win 0).blk t).view.emb (ix2 r k)) = _
  rw [he, V_main_arg0]

/-- Block `t` of the vector features is the same rows, all three planes. -/
theorem blk1 (c : Dev nD) (t : Fin cfg0.N) (r : Fin 2048) (a : Fin 3) (f : Fin 128) (n : Fin 262144)
    (hn : n.val = 2048 * t.val + r.val) :
    iblk m c 1 t (ix3 r a f) = m ((c : Thread nD τ).loc main_arg1) (ix3 n a f) := by
  obtain ⟨e0, e1, e2⟩ := idx1 t
  have he : ((cfg0.win 1).blk t).view.emb (ix3 r a f) = ix3 n a f := by
    funext d; apply Fin.ext
    match d with
    | ⟨0, _⟩ => show win0_1.index t (0 : Fin 3) * 2048 + 1 * r.val = n.val; omega
    | ⟨1, _⟩ => show win0_1.index t (1 : Fin 3) * 3 + 1 * a.val = a.val; omega
    | ⟨2, _⟩ => show win0_1.index t (2 : Fin 3) * 128 + 1 * f.val = f.val; omega
  show V m c main_arg1 (((cfg0.win 1).blk t).view.emb (ix3 r a f)) = _
  rw [he, V_main_arg1]

/-! ## The weight arrays as the grid finds them

Before the grid starts, four slices are taken (the two row groups of each block's first dense matrix) and six arrays
are narrowed.  Narrowing is the identity on the extended reals, and a slice reads its operand at the shifted row. -/

/-- The first mixing matrix reaches the grid narrowed, which changes no element. -/
theorem V_v4 (c : Dev nD) (i : S128x128.Idx) : V m c main_v4 i = m ((c : Thread nD τ).loc main_arg3) i := by
  show StableHlo.after hostOps0 (fun b => m (c, b)) (Proc.devRef .tc main_v4) i = _
  after_results
  rfl

/-- The rows of the first dense matrix that meet the scalars: rows `0 … 127` of the 192, narrowed. -/
theorem V_v5 (c : Dev nD) (k : Fin 128) (j : Fin 64) :
    V m c main_v5 (ix2 k j) = m ((c : Thread nD τ).loc main_arg4) (ix2 (⟨k.val, by omega⟩ : Fin 192) j) := by
  show StableHlo.after hostOps0 (fun b => m (c, b)) (Proc.devRef .tc main_v5) (ix2 k j) = _
  after_results
  show extractStridedSlice (s := S192x64) S128x64 ![0, 0] _ slices_S192x64_S128x64_0_0 (ix2 k j) = _
  exact extractStridedSlice_apply _ _ _ (ix2 k j) (ix2 (⟨k.val, by omega⟩ : Fin 192) j) (fun a => by
    match a with
    | ⟨0, _⟩ => show k.val = 0 + k.val; omega
    | ⟨1, _⟩ => show j.val = 0 + j.val; omega)

/-- The rows that meet the norm: rows `128 … 191`, narrowed. -/
theorem V_v6 (c : Dev nD) (k j : Fin 64) :
    V m c main_v6 (ix2 k j) = m ((c : Thread nD τ).loc main_arg4) (ix2 (⟨128 + k.val, by omega⟩ : Fin 192) j) := by
  show StableHlo.after hostOps0 (fun b => m (c, b)) (Proc.devRef .tc main_v6) (ix2 k j) = _
  after_results
  show extractStridedSlice (s := S192x64) S64x64 ![128, 0] _ slices_S192x64_S64x64_128_0 (ix2 k j) = _
  exact extractStridedSlice_apply _ _ _ (ix2 k j) (ix2 (⟨128 + k.val, by omega⟩ : Fin 192) j) (fun a => by
    match a with
    | ⟨0, _⟩ => rfl
    | ⟨1, _⟩ => show j.val = 0 + j.val; omega)

/-- The first block's second dense matrix, narrowed. -/
theorem V_v7 (c : Dev nD) (i : S64x128.Idx) : V m c main_v7 i = m ((c : Thread nD τ).loc main_arg6) i := by
  show StableHlo.after hostOps0 (fun b => m (c, b)) (Proc.devRef .tc main_v7) i = _
  after_results
  rfl

/-- The second mixing matrix, narrowed. -/
theorem V_v8 (c : Dev nD) (i : S64x2.Idx) : V m c main_v8 i = m ((c : Thread nD τ).loc main_arg8) i := by
  show StableHlo.after hostOps0 (fun b => m (c, b)) (Proc.devRef .tc main_v8) i = _
  after_results
  rfl

/-- The rows of the second block's first dense column that meet the scalars: rows `0 … 63` of the 65, narrowed. -/
theorem V_v9 (c : Dev nD) (k : Fin 64) :
    V m c main_v9 (ix2 k (0 : Fin 1)) = m ((c : Thread nD τ).loc main_arg9) (ix2 (⟨k.val, by omega⟩ : Fin 65) (0 : Fin 1)) := by
  show StableHlo.after hostOps0 (fun b => m (c, b)) (Proc.devRef .tc main_v9) (ix2 k (0 : Fin 1)) = _
  after_results
  show extractStridedSlice (s := S65x1) S64x1 ![0, 0] _ slices_S65x1_S64x1_0_0 (ix2 k (0 : Fin 1)) = _
  exact extractStridedSlice_apply _ _ _ (ix2 k (0 : Fin 1)) (ix2 (⟨k.val, by omega⟩ : Fin 65) (0 : Fin 1)) (fun a => by
    match a with
    | ⟨0, _⟩ => show k.val = 0 + k.val; omega
    | ⟨1, _⟩ => rfl)

/-- The row that meets the norm: row `64`, kept in its format. -/
theorem V_v3 (c : Dev nD) :
    V m c main_v3 (ix2 (0 : Fin 1) (0 : Fin 1)) = m ((c : Thread nD τ).loc main_arg9) (ix2 (⟨64, by omega⟩ : Fin 65) (0 : Fin 1)) := by
  show StableHlo.after hostOps0 (fun b => m (c, b)) (Proc.devRef .tc main_v3) (ix2 (0 : Fin 1) (0 : Fin 1)) = _
  after_results
  exact extractStridedSlice_apply _ _ _ (ix2 (0 : Fin 1) (0 : Fin 1)) (ix2 (⟨64, by omega⟩ : Fin 65) (0 : Fin 1)) (fun a => by
    match a with
    | ⟨0, _⟩ => rfl
    | ⟨1, _⟩ => rfl)

/-! ## The weight windows: every point is handed the whole array -/

/-- The first mixing matrix. -/
theorem blk2 (c : Dev nD) (t : Fin cfg0.N) (f g : Fin 128) :
    iblk m c 2 t (ix2 f g) = m ((c : Thread nD τ).loc main_arg3) (ix2 f g) := by
  obtain ⟨e0, e1⟩ := idx2 t
  have he : ((cfg0.win 2).blk t).view.emb (ix2 f g) = ix2 f g := by
    funext a; apply Fin.ext
    match a with
    | ⟨0, _⟩ => show win0_2.index t (0 : Fin 2) * 128 + 1 * f.val = f.val; omega
    | ⟨1, _⟩ => show win0_2.index t (1 : Fin 2) * 128 + 1 * g.val = g.val; omega
  show V m c main_v4 (((cfg0.win 2).blk t).view.emb (ix2 f g)) = _
  rw [he]
  exact V_v4 m c _

/-- The first dense matrix, the rows that meet the scalars. -/
theorem blk3 (c : Dev nD) (t : Fin cfg0.N) (k : Fin 128) (j : Fin 64) :
    iblk m c 3 t (ix2 k j) = m ((c : Thread nD τ).loc main_arg4) (ix2 (⟨k.val, by omega⟩ : Fin 192) j) := by
  obtain ⟨e0, e1⟩ := idx3 t
  have he : ((cfg0.win 3).blk t).view.emb (ix2 k j) = ix2 k j := by
    funext a; apply Fin.ext
    match a with
    | ⟨0, _⟩ => show win0_3.index t (0 : Fin 2) * 128 + 1 * k.val = k.val; omega
    | ⟨1, _⟩ => show win0_3.index t (1 : Fin 2) * 64 + 1 * j.val = j.val; omega
  show V m c main_v5 (((cfg0.win 3).blk t).view.emb (ix2 k j)) = _
  rw [he]
  exact V_v5 m c k j

/-- The first dense matrix, the rows that meet the norm. -/
theorem blk4 (c : Dev nD) (t : Fin cfg0.N) (k j : Fin 64) :
    iblk m c 4 t (ix2 k j) = m ((c : Thread nD τ).loc main_arg4) (ix2 (⟨128 + k.val, by omega⟩ : Fin 192) j) := by
  obtain ⟨e0, e1⟩ := idx4 t
  have he : ((cfg0.win 4).blk t).view.emb (ix2 k j) = ix2 k j := by
    funext a; apply Fin.ext
    match a with
    | ⟨0, _⟩ => show win0_4.index t (0 : Fin 2) * 64 + 1 * k.val = k.val; omega
    | ⟨1, _⟩ => show win0_4.index t (1 : Fin 2) * 64 + 1 * j.val = j.val; omega
  show V m c main_v6 (((cfg0.win 4).blk t).view.emb (ix2 k j)) = _
  rw [he]
  exact V_v6 m c k j

/-- The first dense bias. -/
theorem blk5 (c : Dev nD) (t : Fin cfg0.N) (j : Fin 64) :
    iblk m c 5 t (ix1 j) = m ((c : Thread nD τ).loc main_arg5) (ix1 j) := by
  have e0 := idx5 t
  have he : ((cfg0.win 5).blk t).view.emb (ix1 j) = ix1 j := by
    funext a; apply Fin.ext
    match a with
    | ⟨0, _⟩ => show win0_5.index t (0 : Fin 1) * 64 + 1 * j.val = j.val; omega
  show V m c main_arg5 (((cfg0.win 5).blk t).view.emb (ix1 j)) = _
  rw [he]
  rw [V_main_arg5]

/-- The first block's second dense matrix. -/
theorem blk6 (c : Dev nD) (t : Fin cfg0.N) (k : Fin 64) (g : Fin 128) :
    iblk m c 6 t (ix2 k g) = m ((c : Thread nD τ).loc main_arg6) (ix2 k g) := by
  obtain ⟨e0, e1⟩ := idx6 t
  have he : ((cfg0.win 6).blk t).view.emb (ix2 k g) = ix2 k g := by
    funext a; apply Fin.ext
    match a with
    | ⟨0, _⟩ => show win0_6.index t (0 : Fin 2) * 64 + 1 * k.val = k.val; omega
    | ⟨1, _⟩ => show win0_6.index t (1 : Fin 2) * 128 + 1 * g.val = g.val; omega
  show V m c main_v7 (((cfg0.win 6).blk t).view.emb (ix2 k g)) = _
  rw [he]
  exact V_v7 m c _

/-- Its bias. -/
theorem blk7 (c : Dev nD) (t : Fin cfg0.N) (g : Fin 128) :
    iblk m c 7 t (ix1 g) = m ((c : Thread nD τ).loc main_arg7) (ix1 g) := by
  have e0 := idx7 t
  have he : ((cfg0.win 7).blk t).view.emb (ix1 g) = ix1 g := by
    funext a; apply Fin.ext
    match a with
    | ⟨0, _⟩ => show win0_7.index t (0 : Fin 1) * 128 + 1 * g.val = g.val; omega
  show V m c main_arg7 (((cfg0.win 7).blk t).view.emb (ix1 g)) = _
  rw [he]
  rw [V_main_arg7]

/-- The second mixing matrix. -/
theorem blk8 (c : Dev nD) (t : Fin cfg0.N) (j : Fin 64) (e : Fin 2) :
    iblk m c 8 t (ix2 j e) = m ((c : Thread nD τ).loc main_arg8) (ix2 j e) := by
  obtain ⟨e0, e1⟩ := idx8 t
  have he : ((cfg0.win 8).blk t).view.emb (ix2 j e) = ix2 j e := by
    funext a; apply Fin.ext
    match a with
    | ⟨0, _⟩ => show win0_8.index t (0 : Fin 2) * 64 + 1 * j.val = j.val; omega
    | ⟨1, _⟩ => show win0_8.index t (1 : Fin 2) * 2 + 1 * e.val = e.val; omega
  show V m c main_v8 (((cfg0.win 8).blk t).view.emb (ix2 j e)) = _
  rw [he]
  exact V_v8 m c _

/-- The second block's first dense column, the rows that meet the scalars. -/
theorem blk9 (c : Dev nD) (t : Fin cfg0.N) (k : Fin 64) :
    iblk m c 9 t (ix2 k (0 : Fin 1)) = m ((c : Thread nD τ).loc main_arg9) (ix2 (⟨k.val, by omega⟩ : Fin 65) (0 : Fin 1)) := by
  obtain ⟨e0, e1⟩ := idx9 t
  have he : ((cfg0.win 9).blk t).view.emb (ix2 k (0 : Fin 1)) = ix2 k (0 : Fin 1) := by
    funext a; apply Fin.ext
    match a with
    | ⟨0, _⟩ => show win0_9.index t (0 : Fin 2) * 64 + 1 * k.val = k.val; omega
    | ⟨1, _⟩ => show win0_9.index t (1 : Fin 2) * 1 + 1 * 0 = 0; omega
  show V m c main_v9 (((cfg0.win 9).blk t).view.emb (ix2 k (0 : Fin 1))) = _
  rw [he]
  exact V_v9 m c k

/-- The second block's first dense column, the row that meets the norm. -/
theorem blk10 (c : Dev nD) (t : Fin cfg0.N) :
    iblk m c 10 t (ix2 (0 : Fin 1) (0 : Fin 1)) = m ((c : Thread nD τ).loc main_arg9) (ix2 (⟨64, by omega⟩ : Fin 65) (0 : Fin 1)) := by
  obtain ⟨e0, e1⟩ := idx10 t
  have he : ((cfg0.win 10).blk t).view.emb (ix2 (0 : Fin 1) (0 : Fin 1)) = ix2 (0 : Fin 1) (0 : Fin 1) := by
    funext a; apply Fin.ext
    match a with
    | ⟨0, _⟩ => show win0_10.index t (0 : Fin 2) * 1 + 1 * 0 = 0; omega
    | ⟨1, _⟩ => show win0_10.index t (1 : Fin 2) * 1 + 1 * 0 = 0; omega
  show V m c main_v3 (((cfg0.win 10).blk t).view.emb (ix2 (0 : Fin 1) (0 : Fin 1))) = _
  rw [he]
  exact V_v3 m c

/-- The second block's first dense bias. -/
theorem blk11 (c : Dev nD) (t : Fin cfg0.N) :
    iblk m c 11 t (ix1 (0 : Fin 1)) = m ((c : Thread nD τ).loc main_arg10) (ix1 (0 : Fin 1)) := by
  have e0 := idx11 t
  have he : ((cfg0.win 11).blk t).view.emb (ix1 (0 : Fin 1)) = ix1 (0 : Fin 1) := by
    funext a; apply Fin.ext
    match a with
    | ⟨0, _⟩ => show win0_11.index t (0 : Fin 1) * 1 + 1 * 0 = 0; omega
  show V m c main_arg10 (((cfg0.win 11).blk t).view.emb (ix1 (0 : Fin 1))) = _
  rw [he]
  rw [V_main_arg10]

/-- The second block's second dense row. -/
theorem blk12 (c : Dev nD) (t : Fin cfg0.N) (e : Fin 2) :
    iblk m c 12 t (ix2 (0 : Fin 1) e) = m ((c : Thread nD τ).loc main_arg11) (ix2 (0 : Fin 1) e) := by
  obtain ⟨e0, e1⟩ := idx12 t
  have he : ((cfg0.win 12).blk t).view.emb (ix2 (0 : Fin 1) e) = ix2 (0 : Fin 1) e := by
    funext a; apply Fin.ext
    match a with
    | ⟨0, _⟩ => show win0_12.index t (0 : Fin 2) * 1 + 1 * 0 = 0; omega
    | ⟨1, _⟩ => show win0_12.index t (1 : Fin 2) * 2 + 1 * e.val = e.val; omega
  show V m c main_arg11 (((cfg0.win 12).blk t).view.emb (ix2 (0 : Fin 1) e)) = _
  rw [he]
  rw [V_main_arg11]

/-- Its bias. -/
theorem blk13 (c : Dev nD) (t : Fin cfg0.N) (e : Fin 2) :
    iblk m c 13 t (ix1 e) = m ((c : Thread nD τ).loc main_arg12) (ix1 e) := by
  have e0 := idx13 t
  have he : ((cfg0.win 13).blk t).view.emb (ix1 e) = ix1 e := by
    funext a; apply Fin.ext
    match a with
    | ⟨0, _⟩ => show win0_13.index t (0 : Fin 1) * 2 + 1 * e.val = e.val; omega
  show V m c main_arg12 (((cfg0.win 13).blk t).view.emb (ix1 e)) = _
  rw [he]
  rw [V_main_arg12]

/-! ## After the grid -/

/-- The flat result is the row-major reshape of the array the grid wrote. -/
theorem tail (c : Dev nD) :
    Pipeline.afterTail₀ cfgs (dats m) 0 (V0 m) [hostOps1] c main_v11
      = shapeCast S786432 ((dats m 0 c).arrAt 14 cfg0.N) shapeCasts_S262144x3_S786432 := by
  unfold Pipeline.afterTail₀
  show StableHlo.after hostOps1 _ (Proc.devRef .tc main_v11) = _
  after_results
  rw [Pipeline.withArrays_arr spec0 launch0.win.arr_inj c _ _ 14]
  rfl

end Cert.GatedRow.Arrays

end
-- ==== Proof.KernelValue.lean ====
/-
  The idealized kernel's run, with its result named.

  Output block `t` is rows `2048 t … 2048 t + 2047` and all three columns of the `[262144, 3]` array, and every point writes
  its block back; row `n` lies in block `n / 2048`, so the 128 blocks cover the array and it ends holding the whole-array
  function of the arguments.  The program's last operation flattens that array row by row.
-/
import proofs.«114226_j16501264351434_2_alg».proof.Proof.Gen.KernelIdeal.Frame
import proofs.«114226_j16501264351434_2_alg».proof.Proof.KernelBlock
import proofs.«114226_j16501264351434_2_alg».proof.Proof.KernelArrays
import Idealize.ShloMosaic.Lib.ValueIdx
import Idealize.ShloMosaic.Lib.Pipeline.Value

set_option maxRecDepth 16384

noncomputable section

namespace Cert.GatedRow.KernelValue

open Idealize.ShloMosaic Idealize.ShloMosaic.TcCoe Idealize.ShloMosaic.ValueIdx Idealize.SL.Sem
open Cert.KernelIdeal Cert.KernelIdeal.Gen Cert.GatedRow Cert.GatedRow.Kernel Cert.GatedRow.Block

/-- The output window's index map over the grid: point `t` owns row block `t` and the one column block. -/
theorem out_index : ∀ t : Fin cfg0.N, win0_14.index t (0 : Fin 2) = t.val ∧ win0_14.index t (1 : Fin 2) = 0 :=
  (by decide +kernel : ∀ t : Fin grid0.N, _)

/-- An index of the result array is in point `t`'s block iff each coordinate is in the block's range on its axis. -/
theorem mem_out_blk (t : Fin cfg0.N) (i : S262144x3.Idx) :
    i ∈ ((cfg0.win 14).blk t).view.set ↔ ∀ a : Fin 2, win0_14.index t a * S2048x3.size a ≤ (i a).val
      ∧ (i a).val < win0_14.index t a * S2048x3.size a + S2048x3.size a := by
  show i ∈ ((View.whole main_v10).slice (win0_14.rect t)).set ↔ _
  rw [View.set_slice_whole, Rect.mem_set_unit]
  exact Iff.rfl

/-- Every index of the result array is in the block of the point its row falls to. -/
theorem covered (i : S262144x3.Idx) : ∃ t : Fin cfg0.N, (cfg0.win 14).flush t = true ∧ i ∈ ((cfg0.win 14).blk t).view.set := by
  have hi0 : (i 0).val < 262144 := (i 0).isLt
  have hi1 : (i 1).val < 3 := (i 1).isLt
  have hN : cfg0.N = 128 := N_0
  let t : Fin cfg0.N := ⟨(i 0).val / 2048, by rw [hN]; omega⟩
  have ht : t.val = (i 0).val / 2048 := rfl
  obtain ⟨e0, e1⟩ := out_index t
  refine ⟨t, flush0_14 t, ?_⟩
  rw [mem_out_blk]
  intro a
  match a with
  | ⟨0, _⟩ => show win0_14.index t (0 : Fin 2) * 2048 ≤ (i 0).val ∧ (i 0).val < win0_14.index t (0 : Fin 2) * 2048 + 2048; omega
  | ⟨1, _⟩ => show win0_14.index t (1 : Fin 2) * 3 ≤ (i 1).val ∧ (i 1).val < win0_14.index t (1 : Fin 2) * 3 + 3; omega

variable (m : (ℓ : Loc nD τ sig) → Buf (Elt Ideal) ℓ)

/-- The `[262144, 3]` result as a function of the kernel's argument arrays. -/
abbrev result (c : Dev nD) : S262144x3.Idx → EReal :=
  wholeResult (m ((c : Thread nD τ).loc main_arg0)) (m ((c : Thread nD τ).loc main_arg1)) (argWeights (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))

/-- At every point the weight windows hold the weights of the argument arrays. -/
theorem weights_eq (c : Dev nD) (t : Fin cfg0.N) :
    blockWeights (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = argWeights (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold blockWeights argWeights
  simp only [Arrays.blk2 m c t, Arrays.blk3 m c t, Arrays.blk4 m c t, Arrays.blk5 m c t, Arrays.blk6 m c t, Arrays.blk7 m c t,
    Arrays.blk8 m c t, Arrays.blk9 m c t, Arrays.blk10 m c t, Arrays.blk11 m c t, Arrays.blk12 m c t, Arrays.blk13 m c t]

/-- What point `t` writes back is block `t` of the whole-array function. -/
theorem flushed_eq (c : Dev nD) (t : Fin cfg0.N) :
    (dats m 0 c).flushed 14 t = ((cfg0.win 14).blk t).view.read (Elt Ideal) (result m c) := by
  show (cfg0.win 14).cut (grid0.coords t) ((dats m 0 c).after 14 t) = _
  rw [after0_14]
  obtain ⟨e0, e1⟩ := out_index t
  funext y
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = result m c (((cfg0.win 14).blk t).view.emb y)
  have hr : ((((cfg0.win 14).blk t).view.emb y) 0).val = 2048 * t.val + (y 0).val := by
    show win0_14.index t (0 : Fin 2) * 2048 + 1 * (y 0).val = _
    omega
  have hc : ((((cfg0.win 14).blk t).view.emb y) 1).val = (y 1).val := by
    show win0_14.index t (1 : Fin 2) * 3 + 1 * (y 1).val = _
    omega
  exact point_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (m ((c : Thread nD τ).loc main_arg0)) (m ((c : Thread nD τ).loc main_arg1)) (argWeights (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) y (((cfg0.win 14).blk t).view.emb y)
    (fun k => Arrays.blk0 m c t (y 0) k _ hr) (fun a f => Arrays.blk1 m c t (y 0) a f _ hr) (weights_eq m c t) (Fin.ext hc.symm)

/-- The result array after the run. -/
theorem final (c : Dev nD) : (dats m 0 c).arrAt 14 cfg0.N = result m c :=
  (dats m 0 c).arrAt_eq_of_cover 14 (result m c) (fun t _ => flushed_eq m c t) covered

variable (ρ : Dev nD → PrngReg)

/-- Every weakly fair execution of the idealized kernel program terminates with the flattened whole-array function of its
    arguments as the result, and the arguments unchanged. -/
theorem kernel_run : θ_run defs (onTc (τ := τ) (main (F := Ideal))) ⟨m, fun _ => 0, ρ⟩ (fun r => ∀ c : Dev nD,
      r.2.mem ((c.tc : Thread nD τ).loc main_v11) = shapeCast S786432 (result m c) shapeCasts_S262144x3_S786432
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v11 (Pipeline.mem_restRefs_of main_v11 (by decide) (by decide))).trans
        ((Arrays.tail m c).trans (congrArg (fun A => shapeCast S786432 A shapeCasts_S262144x3_S786432) (final m c))),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans ((((dats m) 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans ((((dats m) 0 c).arrAt_in 7 rfl _).trans ((A_eq m c 7).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 11).trans ((((dats m) 0 c).arrAt_in 11 rfl _).trans ((A_eq m c 11).trans (V_main_arg10 m c))),
      ((h c).1 12).trans ((((dats m) 0 c).arrAt_in 12 rfl _).trans ((A_eq m c 12).trans (V_main_arg11 m c))),
      ((h c).1 13).trans ((((dats m) 0 c).arrAt_in 13 rfl _).trans ((A_eq m c 13).trans (V_main_arg12 m c)))⟩) (run_main m ρ)

end Cert.GatedRow.KernelValue

end
-- ==== Proof.lean ====
/-
  Two gated equivariant blocks, fused in one row-tiled kernel, against their jnp reference: both idealized programs end
  with the flattened `[262144, 3]` array whose row `n`, plane `a` is one function of row `n` of the scalar features, row `n`
  of the three planes of vector features, and the weights (Proof/RowSpec.lean).

  The kernel computes that function block by block: each plane mixed by its own block product where the reference
  contracts all planes at once, the dense layers' sums taken separately over the scalar features and the norm where
  the reference contracts the concatenated features once, a contraction of length one as a plain product, and the
  logistic function as one operation where the reference spells `1 / (1 + e^(-x))`.  On the extended reals these are
  the same values: addition is commutative and associative there, a change of float format is the identity, and the
  literals 0 and 1 are the numbers 0 and 1.  No law that needs finite values is used, so the precondition is never
  opened.  The ideal pass rewrote nothing in the kernel, so the idealization claim is trivial.
-/
import proofs.«114226_j16501264351434_2_alg».proof.Defs
import proofs.«114226_j16501264351434_2_alg».proof.Proof.Gen.Kernel
import proofs.«114226_j16501264351434_2_alg».proof.Proof.Gen.Kernel.Skeleton
import proofs.«114226_j16501264351434_2_alg».proof.Proof.Gen.Kernel.Launch
import proofs.«114226_j16501264351434_2_alg».proof.Proof.Gen.Kernel.Points
import proofs.«114226_j16501264351434_2_alg».proof.Proof.Gen.Kernel.Frame
import proofs.«114226_j16501264351434_2_alg».proof.Proof.Gen.KernelIdeal
import proofs.«114226_j16501264351434_2_alg».proof.Proof.Gen.KernelIdeal.Skeleton
import proofs.«114226_j16501264351434_2_alg».proof.Proof.Gen.KernelIdeal.Launch
import proofs.«114226_j16501264351434_2_alg».proof.Proof.Gen.KernelIdeal.Points
import proofs.«114226_j16501264351434_2_alg».proof.Proof.Gen.KernelIdeal.Frame
import proofs.«114226_j16501264351434_2_alg».proof.Proof.Gen.ReferenceIdeal
import proofs.«114226_j16501264351434_2_alg».proof.Proof.Gen.Pre_finite_inputs
import proofs.«114226_j16501264351434_2_alg».proof.Proof.Gen.ReferenceIdeal.Run
import proofs.«114226_j16501264351434_2_alg».proof.Proof.Gen.ReferenceIdeal.Read
import proofs.«114226_j16501264351434_2_alg».proof.Proof.RowSpec
import proofs.«114226_j16501264351434_2_alg».proof.Proof.RefRow
import proofs.«114226_j16501264351434_2_alg».proof.Proof.KernelValue
import Idealize.ShloMosaic.Adequacy
import Idealize.ShloMosaic.Init

noncomputable section

namespace Cert.Proof

open Idealize.ShloMosaic Idealize.ShloMosaic.TcCoe Idealize.ShloMosaic.ValueIdx Idealize.SL.Sem Cert.GatedRow

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- The reference's `[262144, 3]` array before the final flattening is the whole-array function of its arguments. -/
theorem reference_whole (x0 : Cert.ReferenceIdeal.S262144x128.Idx → EReal) (x1 : Cert.ReferenceIdeal.S262144x3x128.Idx → EReal) (x3 : Cert.ReferenceIdeal.S128x128.Idx → EReal)
    (x4 : Cert.ReferenceIdeal.S192x64.Idx → EReal) (x5 : Cert.ReferenceIdeal.S64.Idx → EReal) (x6 : Cert.ReferenceIdeal.S64x128.Idx → EReal) (x7 : Cert.ReferenceIdeal.S128.Idx → EReal)
    (x8 : Cert.ReferenceIdeal.S64x2.Idx → EReal) (x9 : Cert.ReferenceIdeal.S65x1.Idx → EReal) (x10 : Cert.ReferenceIdeal.S1.Idx → EReal) (x11 : Cert.ReferenceIdeal.S1x2.Idx → EReal)
    (x12 : Cert.ReferenceIdeal.S2.Idx → EReal) :
    Cert.ReferenceIdeal.Read.val_main_v45 (F := Ideal) x0 x1 x3 x4 x5 x6 x7 x8 x9 x10 x11 x12
      = wholeResult x0 x1 (argWeights x3 x4 x5 x6 x7 x8 x9 x10 x11 x12) := by
  funext i
  obtain ⟨n, a, rfl⟩ : ∃ (n : Fin 262144) (a : Fin 3), i = ix2 n a := ⟨i 0, i 1, eq_ix2 i⟩
  exact Cert.GatedRow.Ref.ref_row x0 x1 x3 x4 x5 x6 x7 x8 x9 x10 x11 x12 n a

/-- Both idealized programs, from memories that agree on the arguments, end with the flattened whole-array function of
    the arguments. -/
theorem algebraic : Cert.algebraic_KernelIdeal_ReferenceIdeal := by
  intro m ρ m' ρ' _ hagree
  refine ⟨_, Cert.GatedRow.KernelValue.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq]
  obtain ⟨a0, a1, -, a3, a4, a5, a6, a7, a8, a9, a10, a11, a12⟩ := hagree c
  rw [a0, a1, a3, a4, a5, a6, a7, a8, a9, a10, a11, a12]
  unfold Cert.ReferenceIdeal.Read.val_main_v46
  rw [reference_whole]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
